-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S256x64 : Shape := ⟨2, ![256, 64]⟩
abbrev S50000x64 : Shape := ⟨2, ![50000, 64]⟩
abbrev S5000x64 : Shape := ⟨2, ![5000, 64]⟩
abbrev S5000x256 : Shape := ⟨2, ![5000, 256]⟩
abbrev S1x64 : Shape := ⟨2, ![1, 64]⟩
abbrev S1x50000x64 : Shape := ⟨3, ![1, 50000, 64]⟩

abbrev nBuf : Space → Nat
  | .hbm => 103
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .bf16⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .bf16⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x128, .f32⟩
  | .hbm, ⟨72, _⟩ => ⟨S50000x128, .bf16⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .bf16⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S_, .f32⟩
  | .hbm, ⟨88, _⟩ => ⟨S128x64, .f32⟩
  | .hbm, ⟨89, _⟩ => ⟨S128x64, .f32⟩
  | .hbm, ⟨90, _⟩ => ⟨S_, .f32⟩
  | .hbm, ⟨91, _⟩ => ⟨S128x64, .f32⟩
  | .hbm, ⟨92, _⟩ => ⟨S128x64, .f32⟩
  | .hbm, ⟨93, _⟩ => ⟨S256x64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64, .f32⟩
  | .hbm, ⟨101, _⟩ => ⟨S50000x64, .f32⟩
  | .hbm, ⟨102, _⟩ => ⟨S1x50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S256x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_v65 : Ref sig .tc := ⟨.hbm, 96, rfl⟩
abbrev main_cst_17 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S128x64 : S_.BroadcastsInDim S128x64 (![] : Fin 0 → Fin S128x64.rank)
  concatenates_S128x64_S128x64_S256x64_d0 : Shape.Concatenates [S128x64, S128x64] S256x64 0
  bcast_S_S64 : S_.BroadcastsInDim S64 (![] : Fin 0 → Fin S64.rank)
  concatenates_S5000x128_S5000x128_S5000x256_d1 : Shape.Concatenates [S5000x128, S5000x128] S5000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S50000x64_S1x50000x64_1_2 : S50000x64.BroadcastsInDim S1x50000x64 (![1, 2] : Fin 2 → Fin S1x50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .bf16 = 32 ∨ (Rect.block (s := S50000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v47_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S1x50000x64 : Shape := ⟨3, ![1, 50000, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x1, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x1, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x1, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x1, .f32⟩
  | 112 => ⟨S50000x128, .f32⟩
  | 113 => ⟨S50000x128, .f32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S1x50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_cst : Ref sig .tc := ⟨.hbm, 59, rfl⟩
abbrev main_call0_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call1_cst : Ref sig .tc := ⟨.hbm, 92, rfl⟩
abbrev main_call1_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result kept: every weakly fair execution of the three pipelines and the host
  operations around them terminates, faulting nowhere, with the result buffer holding what the last host operation
  leaves there and the ten argument arrays as launched.  The contents of every buffer at the seven segment
  boundaries are the fold through the program that the frame states; this is the same launch with the result
  buffer read off the last boundary as well.
-/
import proofs.«111827_j45294725104222_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_result : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Gen

end
-- ==== Proof.LibBatchStats.lean ====
/-
  Batch statistics over the extended reals.

  A batch-normalisation layer needs the mean and the (biased) variance of a finite family of numbers. Two
  spellings of the variance occur: the centred one, the mean of the squared deviations from the mean, and the
  one-pass one, the mean of the squares less the square of the mean, clamped below at zero. On real numbers the two
  are the same number, and the centred one is non-negative, so the clamp does nothing. The lemmas here say so over
  the reals, and carry the statement to the extended reals for families all of whose members are real, where a sum, a
  quotient by a non-zero real, a product and a difference of reals are again the coercions of the real results.
-/
import Idealize.ShloMosaic.PureOps.Ideal

noncomputable section

namespace Cert.Lib.BatchStats

open Idealize.ShloMosaic

variable {ι : Type*}

/-- The coercion of the reals into the extended reals commutes with a finite sum. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero, on the extended reals is the real quotient. -/
theorem div_coe_coe (a b : ℝ) (hb : b ≠ 0) : Ideal.div (a : EReal) (b : EReal) = ((a / b : ℝ) : EReal) := by
  rw [Ideal.div_coe hb, ← EReal.coe_mul, mul_one_div]

/-- The sum of the squared deviations from a number mu, expanded: the sum of the squares, less twice mu times the
    sum, plus the count times mu squared. -/
theorem sum_sq_dev (s : Finset ι) (x : ι → ℝ) (μ : ℝ) :
    ∑ i ∈ s, (x i - μ) * (x i - μ) = ∑ i ∈ s, x i * x i - 2 * μ * ∑ i ∈ s, x i + (s.card : ℝ) * (μ * μ) := by
  have h : ∀ i ∈ s, (x i - μ) * (x i - μ) = x i * x i - 2 * μ * x i + μ * μ := fun i _ => by ring
  rw [Finset.sum_congr rfl h, Finset.sum_add_distrib, Finset.sum_sub_distrib, ← Finset.mul_sum, Finset.sum_const,
    nsmul_eq_mul]

/-- ONE-PASS VARIANCE IS THE CENTRED VARIANCE. For n real numbers (n not zero) the mean of the squares less the
    square of the mean is the mean of the squared deviations from the mean. -/
theorem var_onepass_eq_centred (s : Finset ι) (x : ι → ℝ) (n : ℝ) (hn : (s.card : ℝ) = n) (h0 : n ≠ 0) :
    (∑ i ∈ s, x i * x i) / n - (∑ i ∈ s, x i) / n * ((∑ i ∈ s, x i) / n)
      = (∑ i ∈ s, (x i - (∑ j ∈ s, x j) / n) * (x i - (∑ j ∈ s, x j) / n)) / n := by
  rw [sum_sq_dev, hn]
  field_simp
  ring

/-- The centred variance of real numbers is not negative (the divisor positive). -/
theorem centred_var_nonneg (s : Finset ι) (x : ι → ℝ) (μ n : ℝ) (hn : 0 < n) :
    0 ≤ (∑ i ∈ s, (x i - μ) * (x i - μ)) / n :=
  div_nonneg (Finset.sum_nonneg fun i _ => mul_self_nonneg _) hn.le

/-- So clamping the one-pass variance below at zero changes nothing: it is the centred variance. -/
theorem max_var_onepass (s : Finset ι) (x : ι → ℝ) (n : ℝ) (hn : (s.card : ℝ) = n) (h0 : 0 < n) :
    max ((∑ i ∈ s, x i * x i) / n - (∑ i ∈ s, x i) / n * ((∑ i ∈ s, x i) / n)) 0
      = (∑ i ∈ s, (x i - (∑ j ∈ s, x j) / n) * (x i - (∑ j ∈ s, x j) / n)) / n := by
  rw [var_onepass_eq_centred s x n hn h0.ne']
  exact max_eq_left (centred_var_nonneg s x _ n h0)

/-- The same on the extended reals, for a family of reals: the sums, quotients, products, the difference and the
    maximum are the coercions of the real ones. The left side is the one-pass spelling with its clamp, the right
    side the centred spelling. -/
theorem max_var_onepass_ereal (s : Finset ι) (x : ι → ℝ) (n : ℝ) (hn : (s.card : ℝ) = n) (h0 : 0 < n) :
    max (Ideal.div (∑ i ∈ s, (x i : EReal) * (x i : EReal)) (n : EReal)
          - Ideal.div (∑ i ∈ s, (x i : EReal)) (n : EReal) * Ideal.div (∑ i ∈ s, (x i : EReal)) (n : EReal)) 0
      = Ideal.div (∑ i ∈ s, ((x i : EReal) - Ideal.div (∑ j ∈ s, (x j : EReal)) (n : EReal))
          * ((x i : EReal) - Ideal.div (∑ j ∈ s, (x j : EReal)) (n : EReal))) (n : EReal) := by
  have hne : n ≠ 0 := h0.ne'
  have e1 : ∑ i ∈ s, (x i : EReal) = ((∑ i ∈ s, x i : ℝ) : EReal) := (coe_sum s x).symm
  have e2 : ∑ i ∈ s, (x i : EReal) * (x i : EReal) = ((∑ i ∈ s, x i * x i : ℝ) : EReal) := by
    rw [coe_sum]; exact Finset.sum_congr rfl fun i _ => (EReal.coe_mul _ _).symm
  rw [e1, e2, div_coe_coe _ _ hne, div_coe_coe _ _ hne]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ hne, ← EReal.coe_mul, ← EReal.coe_sub, ← EReal.coe_zero,
    ← EReal.coe_strictMono.monotone.map_max, max_var_onepass s x n hn h0]

end Cert.Lib.BatchStats

end
-- ==== Proof.LibReal.lean ====
/-
  Real-valued extended reals are closed under the operations the network uses.

  An extended real is called real here when it is the coercion of a real number. Sums (finite), products, differences,
  maxima and the ideal quotient of two such, and the inverse square root of a positive one, are again real.
-/
import proofs.«111827_j45294725104222_2_alg».proof.Proof.LibBatchStats

noncomputable section

namespace Cert.Lib.IsR

open Idealize.ShloMosaic Cert.Lib.BatchStats

/-- The extended real a is a real number. -/
def IsR (a : EReal) : Prop := ∃ r : ℝ, a = (r : EReal)

theorem coe (r : ℝ) : IsR (r : EReal) := ⟨r, rfl⟩
theorem zero : IsR 0 := ⟨0, rfl⟩
theorem add {a b : EReal} (ha : IsR a) (hb : IsR b) : IsR (a + b) := by
  obtain ⟨x, rfl⟩ := ha; obtain ⟨y, rfl⟩ := hb; exact ⟨x + y, (EReal.coe_add x y).symm⟩
theorem mul {a b : EReal} (ha : IsR a) (hb : IsR b) : IsR (a * b) := by
  obtain ⟨x, rfl⟩ := ha; obtain ⟨y, rfl⟩ := hb; exact ⟨x * y, (EReal.coe_mul x y).symm⟩
theorem sub {a b : EReal} (ha : IsR a) (hb : IsR b) : IsR (a - b) := by
  obtain ⟨x, rfl⟩ := ha; obtain ⟨y, rfl⟩ := hb; exact ⟨x - y, (EReal.coe_sub x y).symm⟩
theorem max {a b : EReal} (ha : IsR a) (hb : IsR b) : IsR (Max.max a b) := by
  rcases max_choice a b with h | h <;> rw [h] <;> assumption
theorem sum {ι : Type*} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))
theorem div {a : EReal} (ha : IsR a) (n : ℝ) (hn : n ≠ 0) : IsR (Ideal.div a (n : EReal)) := by
  obtain ⟨x, rfl⟩ := ha; exact ⟨x / n, div_coe_coe x n hn⟩
/-- The inverse square root of a positive real is real. -/
theorem rsqrt_pos (r : ℝ) (h : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

end Cert.Lib.IsR

end
-- ==== Proof.LibGcnSpec.lean ====
/-
  The graph encoder's layers as functions of whole arrays over the extended reals, and the one algebraic law that
  joins its two spellings of the last layer.

  A graph-convolution layer scales each row p of the aggregated neighbour features A by the node's in-degree norm c p,
  multiplies by a weight matrix and adds a bias:

      lin A c W b (p, q) = Σ_κ (A (p, κ) · c p) · W (κ, q) + b q.

  Layer 0 is max(lin, 0); layer 1 blends the previous activations H with the new ones, max(0.6·H + 0.4·lin, 0); each
  is then scaled row by row by the out-degree norm for the next aggregation.  The last layer blends a projected skip
  branch with the main branch,

      0.6·(H·S + s) + 0.4·lin A c W b,

  which may also be computed as ONE product of the rows [H | A·c] with the stacked weights [0.6·S ; 0.4·W] plus the
  bias 0.6·s + 0.4·b.  The two are the same number by distributivity, which on the extended reals needs every
  quantity involved to be a real number.
-/
import Idealize.ShloMosaic.PureOps.Ideal.Laws
import Idealize.ShloMosaic.Lib.ValueIdx
import proofs.«111827_j45294725104222_2_alg».proof.Proof.LibReal

noncomputable section

namespace Cert.Gnn

open Idealize.ShloMosaic Idealize.ShloMosaic.ValueIdx Cert.Lib.IsR Cert.Lib.BatchStats

/-- An [a, b] array of extended reals. -/
abbrev Mat (a b : Nat) := (⟨2, ![a, b]⟩ : Shape).Idx → EReal
/-- An [a] vector of extended reals. -/
abbrev Vc (a : Nat) := (⟨1, ![a]⟩ : Shape).Idx → EReal

/-- The three float constants of the network: zero, six tenths and four tenths as single-precision words. -/
def z32 : EReal := Ideal.ofBits .f32 0x00000000#32
def c6 : EReal := Ideal.ofBits .f32 0x3F19999A#32
def c4 : EReal := Ideal.ofBits .f32 0x3ECCCCCD#32

/-- A single-precision word whose exponent field is not all ones denotes a real number. -/
theorem ofBits_f32_isR (b : BitVec 32) (h : (b.extractLsb' 23 8).toNat ≠ 255) : IsR (Ideal.ofBits .f32 b) := by
  show IsR (Ideal.ieee 8 23 b)
  unfold Ideal.ieee
  dsimp only
  have h' : ¬ ((b.extractLsb' 23 8).toNat = 2 ^ 8 - 1) := by norm_num; exact h
  rw [if_neg h']
  split_ifs <;> exact ⟨_, rfl⟩

theorem z32_isR : IsR z32 := ofBits_f32_isR _ (by decide)
theorem c6_isR : IsR c6 := ofBits_f32_isR _ (by decide)
theorem c4_isR : IsR c4 := ofBits_f32_isR _ (by decide)

variable {a k n : Nat}

/-- Row p of A scaled by c p, times column q of W, plus b q. -/
def lin (A : Mat a k) (c : Mat a 1) (W : Mat k n) (b : Vc n) (p : Fin a) (q : Fin n) : EReal :=
  (∑ κ : Fin k, (A (ix2 p κ) * c (ix2 p 0)) * W (ix2 κ q)) + b (ix1 q)

/-- Layer 0: max(lin, 0). -/
def reluLin (A : Mat a k) (c : Mat a 1) (W : Mat k n) (b : Vc n) : Mat a n :=
  fun i => max (lin A c W b (i 0) (i 1)) z32

/-- Every row p scaled by c p. -/
def scaleRows (H : Mat a n) (c : Mat a 1) : Mat a n := fun i => H i * c (ix2 (i 0) 0)

/-- Layer 1: max(0.6·H + 0.4·lin, 0). -/
def blendRelu (H : Mat a n) (A : Mat a k) (c : Mat a 1) (W : Mat k n) (b : Vc n) : Mat a n :=
  fun i => max (c6 * H i + c4 * lin A c W b (i 0) (i 1)) z32

/-- The last layer as the reference spells it: 0.6·(H·S + s) + 0.4·lin A c W b. -/
def headRef (H A : Mat a k) (c : Mat a 1) (S : Mat k n) (s : Vc n) (W : Mat k n) (b : Vc n) : Mat a n :=
  fun i => c6 * ((∑ κ : Fin k, H (ix2 (i 0) κ) * S (ix2 κ (i 1))) + s (ix1 (i 1))) + c4 * lin A c W b (i 0) (i 1)

/-- The last layer as one product with stacked weights, the sum over the stacked axis already split in two. -/
def headFused (H A : Mat a k) (c : Mat a 1) (S : Mat k n) (s : Vc n) (W : Mat k n) (b : Vc n) : Mat a n :=
  fun i => ((∑ κ : Fin k, H (ix2 (i 0) κ) * (c6 * S (ix2 κ (i 1))))
      + ∑ κ : Fin k, (A (ix2 (i 0) κ) * c (ix2 (i 0) 0)) * (c4 * W (ix2 κ (i 1))))
    + (c6 * s (ix1 (i 1)) + c4 * b (ix1 (i 1)))

/-- On real arrays the fused last layer is the reference's: distributivity of the two scalars over the sums. -/
theorem headFused_eq_headRef (H A : Mat a k) (c : Mat a 1) (S : Mat k n) (s : Vc n) (W : Mat k n) (b : Vc n)
    (hH : ∀ i, IsR (H i)) (hA : ∀ i, IsR (A i)) (hc : ∀ i, IsR (c i)) (hS : ∀ i, IsR (S i)) (hs : ∀ i, IsR (s i))
    (hW : ∀ i, IsR (W i)) (hb : ∀ i, IsR (b i)) : headFused H A c S s W b = headRef H A c S s W b := by
  funext i
  choose h eh using hH
  choose α eα using hA
  choose γ eγ using hc
  choose σ eσ using hS
  choose τ eτ using hs
  choose w ew using hW
  choose β eβ using hb
  obtain ⟨x6, e6⟩ := c6_isR
  obtain ⟨x4, e4⟩ := c4_isR
  unfold headFused headRef lin
  simp only [eh, eα, eγ, eσ, eτ, ew, eβ, e6, e4]
  simp only [← EReal.coe_mul, ← coe_sum, ← EReal.coe_add]
  refine congrArg _ ?_
  have e1 : ∑ κ : Fin k, h (ix2 (i 0) κ) * (x6 * σ (ix2 κ (i 1))) = x6 * ∑ κ : Fin k, h (ix2 (i 0) κ) * σ (ix2 κ (i 1)) := by
    rw [Finset.mul_sum]; exact Finset.sum_congr rfl fun _ _ => by ring
  have e2 : ∑ κ : Fin k, (α (ix2 (i 0) κ) * γ (ix2 (i 0) 0)) * (x4 * w (ix2 κ (i 1)))
      = x4 * ∑ κ : Fin k, (α (ix2 (i 0) κ) * γ (ix2 (i 0) 0)) * w (ix2 κ (i 1)) := by
    rw [Finset.mul_sum]; exact Finset.sum_congr rfl fun _ _ => by ring
  rw [e1, e2]
  ring

/-! ## Realness of the layers -/

theorem lin_isR (A : Mat a k) (c : Mat a 1) (W : Mat k n) (b : Vc n) (hA : ∀ i, IsR (A i)) (hc : ∀ i, IsR (c i))
    (hW : ∀ i, IsR (W i)) (hb : ∀ i, IsR (b i)) (p : Fin a) (q : Fin n) : IsR (lin A c W b p q) :=
  add (sum _ _ fun κ _ => mul (mul (hA _) (hc _)) (hW _)) (hb _)

theorem reluLin_isR (A : Mat a k) (c : Mat a 1) (W : Mat k n) (b : Vc n) (hA : ∀ i, IsR (A i)) (hc : ∀ i, IsR (c i))
    (hW : ∀ i, IsR (W i)) (hb : ∀ i, IsR (b i)) (i) : IsR (reluLin A c W b i) :=
  max (lin_isR A c W b hA hc hW hb _ _) z32_isR

theorem scaleRows_isR (H : Mat a n) (c : Mat a 1) (hH : ∀ i, IsR (H i)) (hc : ∀ i, IsR (c i)) (i) :
    IsR (scaleRows H c i) := mul (hH _) (hc _)

theorem blendRelu_isR (H : Mat a n) (A : Mat a k) (c : Mat a 1) (W : Mat k n) (b : Vc n) (hH : ∀ i, IsR (H i))
    (hA : ∀ i, IsR (A i)) (hc : ∀ i, IsR (c i)) (hW : ∀ i, IsR (W i)) (hb : ∀ i, IsR (b i)) (i) :
    IsR (blendRelu H A c W b i) :=
  max (add (mul c6_isR (hH _)) (mul c4_isR (lin_isR A c W b hA hc hW hb _ _))) z32_isR

end Cert.Gnn

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.LibGcnBody.lean ====
/-
  The three kernel bodies' arithmetic read at an entry, generic in the extents.

  Each body scales the rows of the aggregated block by a column of norms, multiplies by a weight matrix on the matrix
  unit into a zero accumulator, and adds a bias row:   (x ⊙ c) · W + b.   Read at (p, q) that is the layer's
  lin x c W b p q.  The last body first puts the previous activations beside the scaled block, [h | x ⊙ c], and
  multiplies by a weight matrix of twice the height; the sum over the doubled axis splits into the sum over the
  first half, which meets h, and the sum over the second half, which meets x ⊙ c.
-/
import Idealize.ShloMosaic.Lib.ValueLayout
import proofs.«111827_j45294725104222_2_alg».proof.Proof.LibGcnSpec
import proofs.«111827_j45294725104222_2_alg».proof.Proof.LibMatmulNN
import proofs.«111827_j45294725104222_2_alg».proof.Proof.LibKeepdims

noncomputable section

namespace Cert.Gnn

open Idealize.ShloMosaic Idealize.ShloMosaic.ValueIdx

variable {a k n : Nat}

/-- The scaled block at (p, κ): x (p, κ) · c (p, 0); the self shape casts and the narrowing are identities. -/
theorem scaled_apply (x : FVec Ideal ⟨2, ![a, k]⟩ .f32) (c : FVec Ideal ⟨2, ![a, 1]⟩ .f32)
    (hx : (⟨2, ![a, k]⟩ : Shape).ShapeCasts ⟨2, ![a, k]⟩) (hc : (⟨2, ![a, 1]⟩ : Shape).ShapeCasts ⟨2, ![a, 1]⟩)
    (hb : (⟨2, ![a, 1]⟩ : Shape).Broadcasts ⟨2, ![a, k]⟩) (p : Fin a) (κ : Fin k) :
    mulf (shapeCast ⟨2, ![a, k]⟩ x hx) (broadcastTo ⟨2, ![a, k]⟩ (shapeCast ⟨2, ![a, 1]⟩ c hc) hb) (ix2 p κ)
      = x (ix2 p κ) * c (ix2 p 0) := by
  show shapeCast ⟨2, ![a, k]⟩ x hx (ix2 p κ) * broadcastTo ⟨2, ![a, k]⟩ (shapeCast ⟨2, ![a, 1]⟩ c hc) hb (ix2 p κ) = _
  rw [shapeCast_self, Cert.Keepdims.broadcastTo_a1_ab_apply, shapeCast_self]

/-- (x ⊙ c) · W + b at (p, q) is lin x c W b p q. -/
theorem linBody_apply (x : FVec Ideal ⟨2, ![a, k]⟩ .f32) (c : FVec Ideal ⟨2, ![a, 1]⟩ .f32)
    (W : FVec Ideal ⟨2, ![k, n]⟩ .f32) (b : FVec Ideal ⟨1, ![n]⟩ .f32)
    (D : DotDims ⟨2, ![a, k]⟩ ⟨2, ![k, n]⟩ ⟨2, ![a, n]⟩) (hD : D = DotDims.plain a k n)
    (hx : (⟨2, ![a, k]⟩ : Shape).ShapeCasts ⟨2, ![a, k]⟩) (hc : (⟨2, ![a, 1]⟩ : Shape).ShapeCasts ⟨2, ![a, 1]⟩)
    (hbc : (⟨2, ![a, 1]⟩ : Shape).Broadcasts ⟨2, ![a, k]⟩) (hlt : FTy.bf16.bits < FTy.f32.bits)
    (hrow : (⟨1, ![n]⟩ : Shape).ShapeCasts ⟨2, ![1, n]⟩) (hbr : (⟨2, ![1, n]⟩ : Shape).Broadcasts ⟨2, ![a, n]⟩)
    (p : Fin a) (q : Fin n) :
    addf (FloatOps.matmul D none
          (truncf .bf16 (mulf (shapeCast ⟨2, ![a, k]⟩ x hx) (broadcastTo ⟨2, ![a, k]⟩ (shapeCast ⟨2, ![a, 1]⟩ c hc) hbc)) hlt)
          (truncf .bf16 W hlt) (constant (F := Ideal) ⟨2, ![a, n]⟩ .f32 0x00000000#32))
        (broadcastTo ⟨2, ![a, n]⟩ (shapeCast ⟨2, ![1, n]⟩ b hrow) hbr) (ix2 p q)
      = lin x c W b p q := by
  show FloatOps.matmul D none _ _ _ (ix2 p q) + broadcastTo ⟨2, ![a, n]⟩ (shapeCast ⟨2, ![1, n]⟩ b hrow) hbr (ix2 p q) = _
  rw [Cert.MatmulNN.matmul_zero_apply D hD, broadcastTo_1b_ab_apply, shapeCast_a_1a_apply]
  unfold lin
  refine congrArg (· + b (ix1 q)) (Finset.sum_congr rfl fun κ _ => ?_)
  exact congrArg (· * W (ix2 κ q)) (scaled_apply x c hx hc hbc p κ)

end Cert.Gnn

end
-- ==== Proof.LibGcnHead.lean ====
/-
  The last layer's body read at an entry: the rows [h | x ⊙ c] times a weight matrix of doubled height, plus a bias.

  The sum over the doubled contraction axis splits at the middle.  An index in the first half reads h and the upper
  block of the weights; an index in the second half reads the scaled block x ⊙ c and the lower block.
-/
import Idealize.ShloMosaic.Lib.Pipeline.Value
import proofs.«111827_j45294725104222_2_alg».proof.Proof.LibGcnBody

noncomputable section

namespace Cert.Gnn

open Idealize.ShloMosaic Idealize.ShloMosaic.ValueIdx

variable {a k n : Nat}

/-- [H | A ⊙ c] · Wc + bc, the sum over the stacked axis written as its two halves. -/
def fusedProd (H A : Mat a k) (c : Mat a 1) (Wc : Mat (k + k) n) (bc : Vc n) : Mat a n := fun i =>
  ((∑ κ : Fin k, H (ix2 (i 0) κ) * Wc (ix2 (Fin.castAdd k κ) (i 1)))
    + ∑ κ : Fin k, (A (ix2 (i 0) κ) * c (ix2 (i 0) 0)) * Wc (ix2 (Fin.natAdd k κ) (i 1))) + bc (ix1 (i 1))

theorem fusedBody_apply (h x : FVec Ideal ⟨2, ![a, k]⟩ .f32) (c : FVec Ideal ⟨2, ![a, 1]⟩ .f32)
    (Wc : FVec Ideal ⟨2, ![k + k, n]⟩ .f32) (bc : FVec Ideal ⟨1, ![n]⟩ .f32)
    (D : DotDims ⟨2, ![a, k + k]⟩ ⟨2, ![k + k, n]⟩ ⟨2, ![a, n]⟩) (hD : D = DotDims.plain a (k + k) n)
    (hh hx : (⟨2, ![a, k]⟩ : Shape).ShapeCasts ⟨2, ![a, k]⟩) (hc : (⟨2, ![a, 1]⟩ : Shape).ShapeCasts ⟨2, ![a, 1]⟩)
    (hbc : (⟨2, ![a, 1]⟩ : Shape).Broadcasts ⟨2, ![a, k]⟩) (hlt : FTy.bf16.bits < FTy.f32.bits)
    (hcat : Shape.Concatenates [(⟨2, ![a, k]⟩ : Shape), ⟨2, ![a, k]⟩] ⟨2, ![a, k + k]⟩ 1)
    (hW : (⟨2, ![k + k, n]⟩ : Shape).ShapeCasts ⟨2, ![k + k, n]⟩) (hb1 : (⟨1, ![n]⟩ : Shape).ShapeCasts ⟨1, ![n]⟩)
    (hrow : (⟨1, ![n]⟩ : Shape).ShapeCasts ⟨2, ![1, n]⟩) (hbr : (⟨2, ![1, n]⟩ : Shape).Broadcasts ⟨2, ![a, n]⟩)
    (p : Fin a) (q : Fin n) :
    addf (FloatOps.matmul D none
          (truncf .bf16 (concatenate ⟨2, ![a, k + k]⟩ 1
            [⟨⟨2, ![a, k]⟩, shapeCast ⟨2, ![a, k]⟩ h hh⟩,
             ⟨⟨2, ![a, k]⟩, mulf (shapeCast ⟨2, ![a, k]⟩ x hx) (broadcastTo ⟨2, ![a, k]⟩ (shapeCast ⟨2, ![a, 1]⟩ c hc) hbc)⟩] hcat) hlt)
          (truncf .bf16 (shapeCast ⟨2, ![k + k, n]⟩ Wc hW) hlt) (constant (F := Ideal) ⟨2, ![a, n]⟩ .f32 0x00000000#32))
        (broadcastTo ⟨2, ![a, n]⟩ (shapeCast ⟨2, ![1, n]⟩ (shapeCast ⟨1, ![n]⟩ bc hb1) hrow) hbr) (ix2 p q)
      = fusedProd h x c Wc bc (ix2 p q) := by
  rw [shapeCast_self h hh, shapeCast_self Wc hW, shapeCast_self bc hb1]
  show FloatOps.matmul D none _ _ _ (ix2 p q) + broadcastTo ⟨2, ![a, n]⟩ (shapeCast ⟨2, ![1, n]⟩ bc hrow) hbr (ix2 p q) = _
  rw [Cert.MatmulNN.matmul_zero_apply D hD, broadcastTo_1b_ab_apply, shapeCast_a_1a_apply, Fin.sum_univ_add]
  show _ = ((∑ κ : Fin k, h (ix2 p κ) * Wc (ix2 (Fin.castAdd k κ) q))
    + ∑ κ : Fin k, (x (ix2 p κ) * c (ix2 p 0)) * Wc (ix2 (Fin.natAdd k κ) q)) + bc (ix1 q)
  refine congrArg (· + bc (ix1 q)) (congrArg₂ (· + ·) (Finset.sum_congr rfl fun κ _ => ?_) (Finset.sum_congr rfl fun κ _ => ?_))
  · simp only [truncf_apply]
    rw [concatenate_pair_apply_left 1 _ _ hcat (ix2 p (Fin.castAdd k κ)) rfl (ix2 p κ)
      (fun b => by match b with | ⟨0, _⟩ => rfl | ⟨1, _⟩ => rfl)]
  · simp only [truncf_apply]
    rw [concatenate_pair_apply_right 1 _ _ hcat (ix2 p (Fin.natAdd k κ)) rfl rfl (ix2 p κ)
      (fun b hb => by
        match b with
        | ⟨0, _⟩ => rfl
        | ⟨1, _⟩ => exact absurd rfl hb)
      (by show κ.val + k = k + κ.val; omega), scaled_apply]

/-! ## The layer functions at an entry given by its coordinates -/

theorem fusedProd_apply (H A : Mat a k) (c : Mat a 1) (Wc : Mat (k + k) n) (bc : Vc n) (p : Fin a) (q : Fin n) :
    fusedProd H A c Wc bc (ix2 p q)
      = ((∑ κ : Fin k, H (ix2 p κ) * Wc (ix2 (Fin.castAdd k κ) q))
        + ∑ κ : Fin k, (A (ix2 p κ) * c (ix2 p 0)) * Wc (ix2 (Fin.natAdd k κ) q)) + bc (ix1 q) := rfl

theorem reluLin_apply (A : Mat a k) (c : Mat a 1) (W : Mat k n) (b : Vc n) (p : Fin a) (q : Fin n) :
    reluLin A c W b (ix2 p q) = max (lin A c W b p q) z32 := rfl

theorem scaleRows_apply (H : Mat a n) (c : Mat a 1) (p : Fin a) (q : Fin n) :
    scaleRows H c (ix2 p q) = H (ix2 p q) * c (ix2 p 0) := rfl

theorem blendRelu_apply (H : Mat a n) (A : Mat a k) (c : Mat a 1) (W : Mat k n) (b : Vc n) (p : Fin a) (q : Fin n) :
    blendRelu H A c W b (ix2 p q) = max (c6 * H (ix2 p q) + c4 * lin A c W b p q) z32 := rfl

theorem headRef_apply (H A : Mat a k) (c : Mat a 1) (S : Mat k n) (s : Vc n) (W : Mat k n) (b : Vc n) (p : Fin a) (q : Fin n) :
    headRef H A c S s W b (ix2 p q)
      = c6 * ((∑ κ : Fin k, H (ix2 p κ) * S (ix2 κ q)) + s (ix1 q)) + c4 * lin A c W b p q := rfl

theorem headFused_apply (H A : Mat a k) (c : Mat a 1) (S : Mat k n) (s : Vc n) (W : Mat k n) (b : Vc n) (p : Fin a) (q : Fin n) :
    headFused H A c S s W b (ix2 p q)
      = ((∑ κ : Fin k, H (ix2 p κ) * (c6 * S (ix2 κ q))) + ∑ κ : Fin k, (A (ix2 p κ) * c (ix2 p 0)) * (c4 * W (ix2 κ q)))
        + (c6 * s (ix1 q) + c4 * b (ix1 q)) := rfl

end Cert.Gnn

end
-- ==== Proof.KernelPayloads.lean ====
/-
  The three kernel bodies' stored values read at an entry, over the extended reals.

  Layer 0 stores max(lin, 0) and its rows scaled by the out-degree norm; layer 1 stores max(0.6·h + 0.4·lin, 0) and
  its scaled rows; the last layer stores the fused product [h | x ⊙ c] · Wc + bc.
-/
import proofs.«111827_j45294725104222_2_alg».proof.Proof.Gen.KernelIdeal.Skeleton
import proofs.«111827_j45294725104222_2_alg».proof.Proof.LibGcnHead

noncomputable section

namespace Cert.KernelIdeal.Pay

open Cert.KernelIdeal Cert.KernelIdeal.Gen Idealize.ShloMosaic Idealize.ShloMosaic.ValueIdx Cert.Gnn

/-- Layer 0's first store at (p, q): max(lin, 0). -/
theorem pay0_1 (v0 : FVec Ideal S5000x128 .f32) (v2 : FVec Ideal S5000x1 .f32) (v7 : FVec Ideal S128x128 .f32)
    (v10 : FVec Ideal S128 .f32) (p : Fin 5000) (q : Fin 128) :
    k0_pay1 (F := Ideal) v0 v2 v7 v10 (ix2 p q) = max (lin v0 v2 v7 v10 p q) z32 := by
  unfold k0_pay1
  show max (addf (FloatOps.matmul _ none _ _ _) _ (ix2 p q)) (Ideal.ofBits .f32 0x00000000#32) = _
  rw [linBody_apply v0 v2 v7 v10 dot_S5000x128_S128x128_S5000x128_1_0_0_1_n_n rfl]
  rfl

/-- Layer 0's second store at (p, q): the first, times the out-degree norm of row p. -/
theorem pay0_2 (v0 : FVec Ideal S5000x128 .f32) (v2 : FVec Ideal S5000x1 .f32) (v7 : FVec Ideal S128x128 .f32)
    (v10 : FVec Ideal S128 .f32) (v17 : FVec Ideal S5000x1 .f32) (p : Fin 5000) (q : Fin 128) :
    k0_pay2 (F := Ideal) v0 v2 v7 v10 v17 (ix2 p q) = max (lin v0 v2 v7 v10 p q) z32 * v17 (ix2 p 0) := by
  unfold k0_pay2
  show k0_pay1 (F := Ideal) v0 v2 v7 v10 (ix2 p q) * broadcastTo S5000x128 (shapeCast S5000x1 v17 _) _ (ix2 p q) = _
  rw [Cert.Keepdims.broadcastTo_a1_ab_apply, shapeCast_self, pay0_1]

/-- Layer 1's first store at (p, q): max(0.6·h + 0.4·lin, 0). -/
theorem pay1_1 (v0 : FVec Ideal S5000x128 .f32) (v2 : FVec Ideal S5000x1 .f32) (v7 : FVec Ideal S128x128 .f32)
    (v10 : FVec Ideal S128 .f32) (v14 : FVec Ideal S5000x128 .f32) (p : Fin 5000) (q : Fin 128) :
    k1_pay1 (F := Ideal) v0 v2 v7 v10 v14 (ix2 p q) = max (c6 * v14 (ix2 p q) + c4 * lin v0 v2 v7 v10 p q) z32 := by
  unfold k1_pay1
  show max (Ideal.ofBits .f32 0x3F19999A#32 * shapeCast S5000x128 v14 _ (ix2 p q)
      + Ideal.ofBits .f32 0x3ECCCCCD#32 * addf (FloatOps.matmul _ none _ _ _) _ (ix2 p q)) (Ideal.ofBits .f32 0x00000000#32) = _
  rw [shapeCast_self, linBody_apply v0 v2 v7 v10 dot_S5000x128_S128x128_S5000x128_1_0_0_1_n_n rfl]
  rfl

/-- Layer 1's second store at (p, q): the first, times the out-degree norm of row p. -/
theorem pay1_2 (v0 : FVec Ideal S5000x128 .f32) (v2 : FVec Ideal S5000x1 .f32) (v7 : FVec Ideal S128x128 .f32)
    (v10 : FVec Ideal S128 .f32) (v14 : FVec Ideal S5000x128 .f32) (v24 : FVec Ideal S5000x1 .f32) (p : Fin 5000) (q : Fin 128) :
    k1_pay2 (F := Ideal) v0 v2 v7 v10 v14 v24 (ix2 p q)
      = max (c6 * v14 (ix2 p q) + c4 * lin v0 v2 v7 v10 p q) z32 * v24 (ix2 p 0) := by
  unfold k1_pay2
  show k1_pay1 (F := Ideal) v0 v2 v7 v10 v14 (ix2 p q) * broadcastTo S5000x128 (shapeCast S5000x1 v24 _) _ (ix2 p q) = _
  rw [Cert.Keepdims.broadcastTo_a1_ab_apply, shapeCast_self, pay1_1]

/-- The last layer's store at (p, q): the fused product. -/
theorem pay2_1 (v0 : FVec Ideal S5000x128 .f32) (v2 : FVec Ideal S5000x1 .f32) (v6 : FVec Ideal S5000x128 .f32)
    (v10 : FVec Ideal S256x64 .f32) (v14 : FVec Ideal S64 .f32) (p : Fin 5000) (q : Fin 64) :
    k2_pay1 (F := Ideal) v0 v2 v6 v10 v14 (ix2 p q) = fusedProd (k := 128) v6 v0 v2 v10 v14 (ix2 p q) := by
  unfold k2_pay1
  exact fusedBody_apply (k := 128) v6 v0 v2 v10 v14 dot_S5000x256_S256x64_S5000x64_1_0_0_1_n_n rfl _ _ _ _ _ _ _ _ _ _ p q

end Cert.KernelIdeal.Pay

end
-- ==== Proof.Layer0Value.lean ====
/-
  What the first layer's pipeline leaves in its two output arrays, as whole-array functions of the arrays it reads.

  The grid has ten points; point t reads rows 5000·t … 5000·t + 4999 of the aggregated features and of the two norm
  columns, the whole weight matrix and the whole bias, and writes the same rows of the two outputs.  So the block that
  point t writes back is the restriction to those rows of one function of the whole arrays — the layer's formula — and
  the ten blocks together cover every row.
-/
import proofs.«111827_j45294725104222_2_alg».proof.Proof.Gen.KernelIdeal.Frame
import proofs.«111827_j45294725104222_2_alg».proof.Proof.KernelPayloads

set_option maxRecDepth 16384

noncomputable section

namespace Cert.KernelIdeal.Layers

open Cert.KernelIdeal Cert.KernelIdeal.Gen Idealize.ShloMosaic Idealize.ShloMosaic.TcCoe Idealize.ShloMosaic.ValueIdx Cert.Gnn
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Layer 0 on whole arrays, and its rows scaled by the out-degree norms. -/
abbrev L0 (A : S50000x128.Idx → EReal) (c : S50000x1.Idx → EReal) (W : S128x128.Idx → EReal) (b : S128.Idx → EReal) :
    S50000x128.Idx → EReal := reluLin (a := 50000) (k := 128) (n := 128) A c W b
abbrev Sc (H : S50000x128.Idx → EReal) (c : S50000x1.Idx → EReal) : S50000x128.Idx → EReal :=
  scaleRows (a := 50000) (n := 128) H c

/-- The printed index maps over the grid: point t's row block is block t; the weights' and bias's block is block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 5000·t + p of the array. -/
def row0 (t : Fin cfg0.N) (p : Fin 5000) : Fin 50000 :=
  ⟨5000 * t.val + p.val, by have hN : cfg0.N = 10 := N_0; have := t.isLt; have := p.isLt; omega⟩

/-! ## The windows' blocks read at an entry -/

theorem rd0_0 (c : Dev nD) (t : Fin cfg0.N) (p : Fin 5000) (κ : Fin 128) :
    iblk0 V c 0 t (ix2 p κ) = V c main_v34 (ix2 (row0 t p) κ) := by
  obtain ⟨e00, e01, e10, e11, e20, e21, e30, e31, e40, e50, e51, e60, e61⟩ := idx_facts0 t
  show V c main_v34 (((cfg0.win 0).blk t).view.emb (ix2 p κ)) = _
  refine congrArg (V c main_v34) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * κ.val = κ.val; omega

theorem rd0_1 (c : Dev nD) (t : Fin cfg0.N) (p : Fin 5000) :
    iblk0 V c 1 t (ix2 p 0) = V c main_v20 (ix2 (row0 t p) 0) := by
  obtain ⟨e00, e01, e10, e11, e20, e21, e30, e31, e40, e50, e51, e60, e61⟩ := idx_facts0 t
  show V c main_v20 (((cfg0.win 1).blk t).view.emb (ix2 p 0)) = _
  refine congrArg (V c main_v20) (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

theorem rd0_2 (c : Dev nD) (t : Fin cfg0.N) (p : Fin 5000) :
    iblk0 V c 2 t (ix2 p 0) = V c main_v15 (ix2 (row0 t p) 0) := by
  obtain ⟨e00, e01, e10, e11, e20, e21, e30, e31, e40, e50, e51, e60, e61⟩ := idx_facts0 t
  show V c main_v15 (((cfg0.win 2).blk t).view.emb (ix2 p 0)) = _
  refine congrArg (V c main_v15) (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * 0 = 0; omega

theorem rd0_3 (c : Dev nD) (t : Fin cfg0.N) (κ : Fin 128) (q : Fin 128) :
    iblk0 V c 3 t (ix2 κ q) = V c main_arg2 (ix2 κ q) := by
  obtain ⟨e00, e01, e10, e11, e20, e21, e30, e31, e40, e50, e51, e60, e61⟩ := idx_facts0 t
  show V c main_arg2 (((cfg0.win 3).blk t).view.emb (ix2 κ q)) = _
  refine congrArg (V c main_arg2) (funext fun a => Fin.ext ?_)
  match a with
  | ⟨0, _⟩ => show win0_3.index t (0 : Fin 2) * 128 + 1 * κ.val = κ.val; omega
  | ⟨1, _⟩ => show win0_3.index t (1 : Fin 2) * 128 + 1 * q.val = q.val; omega

theorem rd0_4 (c : Dev nD) (t : Fin cfg0.N) (q : Fin 128) :
    iblk0 V c 4 t (ix1 q) = V c main_arg3 (ix1 q) := by
  obtain ⟨e00, e01, e10, e11, e20, e21, e30, e31, e40, e50, e51, e60, e61⟩ := idx_facts0 t
  show V c main_arg3 (((cfg0.win 4).blk t).view.emb (ix1 q)) = _
  refine congrArg (V c main_arg3) (funext fun a => Fin.ext ?_)
  match a with
  | ⟨0, _⟩ => show win0_4.index t (0 : Fin 1) * 128 + 1 * q.val = q.val; omega

theorem emb0_5 (t : Fin cfg0.N) (p : Fin 5000) (q : Fin 128) :
    ((cfg0.win 5).blk t).view.emb (ix2 p q) = ix2 (row0 t p) q := by
  obtain ⟨e00, e01, e10, e11, e20, e21, e30, e31, e40, e50, e51, e60, e61⟩ := idx_facts0 t
  refine funext fun a => Fin.ext ?_
  match a with
  | ⟨0, _⟩ => show win0_5.index t (0 : Fin 2) * 5000 + 1 * p.val = 5000 * t.val + p.val; omega
  | ⟨1, _⟩ => show win0_5.index t (1 : Fin 2) * 128 + 1 * q.val = q.val; omega

theorem emb0_6 (t : Fin cfg0.N) (p : Fin 5000) (q : Fin 128) :
    ((cfg0.win 6).blk t).view.emb (ix2 p q) = ix2 (row0 t p) q := by
  obtain ⟨e00, e01, e10, e11, e20, e21, e30, e31, e40, e50, e51, e60, e61⟩ := idx_facts0 t
  refine funext fun a => Fin.ext ?_
  match a with
  | ⟨0, _⟩ => show win0_6.index t (0 : Fin 2) * 5000 + 1 * p.val = 5000 * t.val + p.val; omega
  | ⟨1, _⟩ => show win0_6.index t (1 : Fin 2) * 128 + 1 * q.val = q.val; omega

/-- The layer's formula on point t's blocks at (p, q) is the formula on the whole arrays at row 5000·t + p. -/
theorem lin_blocks0 (c : Dev nD) (t : Fin cfg0.N) (p : Fin 5000) (q : Fin 128) :
    lin (iblk0 V c 0 t) (iblk0 V c 1 t) (iblk0 V c 3 t) (iblk0 V c 4 t) p q
      = lin (a := 50000) (k := 128) (n := 128) (V c main_v34) (V c main_v20) (V c main_arg2) (V c main_arg3) (row0 t p) q := by
  unfold lin
  refine congrArg₂ (· + ·) (Finset.sum_congr rfl fun κ _ => ?_) (rd0_4 V c t q)
  rw [rd0_0, rd0_1, rd0_3]

/-! ## What point t writes back -/

theorem flushed0_5_eq (c : Dev nD) (t : Fin cfg0.N) :
    (dat0 (F := Ideal) V c).flushed 5 t = ((cfg0.win 5).blk t).view.read (Elt Ideal)
      (L0 (V c main_v34) (V c main_v20) (V c main_arg2) (V c main_arg3)) := by
  show (cfg0.win 5).cut (grid0.coords t) ((dat0 (F := Ideal) V c).after 5 t) = _
  rw [after0_5]
  unfold out0_5
  rw [View.canon_unit_zero hz2]
  simp only [View.ld_unit_zero (S := S5000x128) hz2, View.ld_unit_zero (S := S5000x1) hz2,
    View.ld_unit_zero (S := S128x128) hz2, View.ld_unit_zero (S := S128) hz1]
  funext j
  show k0_pay1 (F := Ideal) (iblk0 V c 0 t) (iblk0 V c 1 t) (iblk0 V c 3 t) (iblk0 V c 4 t) j
    = L0 (V c main_v34) (V c main_v20) (V c main_arg2) (V c main_arg3) (((cfg0.win 5).blk t).view.emb j)
  obtain ⟨p, q, rfl⟩ : ∃ (p : Fin 5000) (q : Fin 128), j = ix2 p q := ⟨j 0, j 1, eq_ix2 j⟩
  rw [emb0_5]
  refine (Pay.pay0_1 (iblk0 V c 0 t) (iblk0 V c 1 t) (iblk0 V c 3 t) (iblk0 V c 4 t) p q).trans ?_
  exact congrArg (max · z32) (lin_blocks0 V c t p q)

theorem flushed0_6_eq (c : Dev nD) (t : Fin cfg0.N) :
    (dat0 (F := Ideal) V c).flushed 6 t = ((cfg0.win 6).blk t).view.read (Elt Ideal)
      (Sc (L0 (V c main_v34) (V c main_v20) (V c main_arg2) (V c main_arg3)) (V c main_v15)) := by
  show (cfg0.win 6).cut (grid0.coords t) ((dat0 (F := Ideal) V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  funext j
  show k0_pay2 (F := Ideal) (iblk0 V c 0 t) (iblk0 V c 1 t) (iblk0 V c 3 t) (iblk0 V c 4 t) (iblk0 V c 2 t) j
    = Sc (L0 (V c main_v34) (V c main_v20) (V c main_arg2) (V c main_arg3)) (V c main_v15) (((cfg0.win 6).blk t).view.emb j)
  obtain ⟨p, q, rfl⟩ : ∃ (p : Fin 5000) (q : Fin 128), j = ix2 p q := ⟨j 0, j 1, eq_ix2 j⟩
  rw [emb0_6]
  refine (Pay.pay0_2 (iblk0 V c 0 t) (iblk0 V c 1 t) (iblk0 V c 3 t) (iblk0 V c 4 t) (iblk0 V c 2 t) p q).trans ?_
  exact congrArg₂ (· * ·) (congrArg (max · z32) (lin_blocks0 V c t p q)) (rd0_2 V c t p)

/-! ## The ten blocks cover the array -/

theorem mem_blk0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v35_0).slice (win0_5.rect t)).set ↔ _
  rw [View.set_slice_whole, Rect.mem_set_unit]
  exact Iff.rfl

theorem mem_blk0_6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v35_1).slice (win0_6.rect t)).set ↔ _
  rw [View.set_slice_whole, Rect.mem_set_unit]
  exact Iff.rfl

theorem covered0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨e00, e01, e10, e11, e20, e21, e30, e31, e40, e50, e51, e60, e61⟩ := idx_facts0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

theorem covered0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨e00, e01, e10, e11, e20, e21, e30, e31, e40, e50, e51, e60, e61⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The two output arrays after the pipeline -/

theorem arr0_5 (c : Dev nD) : (dat0 (F := Ideal) V c).arrAt 5 cfg0.N
    = L0 (V c main_v34) (V c main_v20) (V c main_arg2) (V c main_arg3) :=
  (dat0 (F := Ideal) V c).arrAt_eq_of_cover 5 _ (fun t _ => flushed0_5_eq V c t) covered0_5

theorem arr0_6 (c : Dev nD) : (dat0 (F := Ideal) V c).arrAt 6 cfg0.N
    = Sc (L0 (V c main_v34) (V c main_v20) (V c main_arg2) (V c main_arg3)) (V c main_v15) :=
  (dat0 (F := Ideal) V c).arrAt_eq_of_cover 6 _ (fun t _ => flushed0_6_eq V c t) covered0_6

end Cert.KernelIdeal.Layers

end
-- ==== Proof.Layer1Value.lean ====
/-
  What the second layer's pipeline leaves in its two output arrays, as whole-array functions of the arrays it reads.

  Point t of the ten-point grid reads rows 5000·t … 5000·t + 4999 of the previous activations, of the aggregated
  features and of the two norm columns, the whole weight matrix and bias, and writes the same rows of the blended
  activations max(0.6·h + 0.4·lin, 0) and of their scaling by the out-degree norms.
-/
import proofs.«111827_j45294725104222_2_alg».proof.Proof.Layer0Value

set_option maxRecDepth 16384

noncomputable section

namespace Cert.KernelIdeal.Layers

open Cert.KernelIdeal Cert.KernelIdeal.Gen Idealize.ShloMosaic Idealize.ShloMosaic.TcCoe Idealize.ShloMosaic.ValueIdx Cert.Gnn
open Idealize.SL.Sem
open Idealize.ShloMosaic.Pipeline (Dat Cfg Window)

variable (V : (c : Dev nD) → (b : Ref sig .tc) → Buf (Elt Ideal) ((c : Thread nD τ).loc b))

/-- Layer 1 on whole arrays. -/
abbrev L1 (H A : S50000x128.Idx → EReal) (c : S50000x1.Idx → EReal) (W : S128x128.Idx → EReal) (b : S128.Idx → EReal) :
    S50000x128.Idx → EReal := blendRelu (a := 50000) (k := 128) (n := 128) H A c W b

/-- The printed index maps over the grid: point t's row block is block t; the weights' and bias's block is block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row p of point t's block is row 5000·t + p of the array. -/
def row1 (t : Fin cfg1.N) (p : Fin 5000) : Fin 50000 :=
  ⟨5000 * t.val + p.val, by have hN : cfg1.N = 10 := N_1; have := t.isLt; have := p.isLt; omega⟩

/-! ## The windows' blocks read at an entry -/

theorem rd1_0 (c : Dev nD) (t : Fin cfg1.N) (p : Fin 5000) (κ : Fin 128) :
    iblk1 V c 0 t (ix2 p κ) = V c main_v35_0 (ix2 (row1 t p) κ) := by
  obtain ⟨e00, e01, e10, e11, e20, e21, e30, e31, e40, e41, e50, e60, e61, e70, e71⟩ := idx_facts1 t
  show V c main_v35_0 (((cfg1.win 0).blk t).view.emb (ix2 p κ)) = _
  refine congrArg (V c main_v35_0) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * κ.val = κ.val; omega

theorem rd1_1 (c : Dev nD) (t : Fin cfg1.N) (p : Fin 5000) (κ : Fin 128) :
    iblk1 V c 1 t (ix2 p κ) = V c main_v46 (ix2 (row1 t p) κ) := by
  obtain ⟨e00, e01, e10, e11, e20, e21, e30, e31, e40, e41, e50, e60, e61, e70, e71⟩ := idx_facts1 t
  show V c main_v46 (((cfg1.win 1).blk t).view.emb (ix2 p κ)) = _
  refine congrArg (V c main_v46) (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * κ.val = κ.val; omega

theorem rd1_2 (c : Dev nD) (t : Fin cfg1.N) (p : Fin 5000) :
    iblk1 V c 2 t (ix2 p 0) = V c main_v20 (ix2 (row1 t p) 0) := by
  obtain ⟨e00, e01, e10, e11, e20, e21, e30, e31, e40, e41, e50, e60, e61, e70, e71⟩ := idx_facts1 t
  show V c main_v20 (((cfg1.win 2).blk t).view.emb (ix2 p 0)) = _
  refine congrArg (V c main_v20) (funext fun a => Fin.ext ?_)
  match a with
  | ⟨0, _⟩ => show win1_2.index t (0 : Fin 2) * 5000 + 1 * p.val = 5000 * t.val + p.val; omega
  | ⟨1, _⟩ => show win1_2.index t (1 : Fin 2) * 1 + 1 * 0 = 0; omega

theorem rd1_3 (c : Dev nD) (t : Fin cfg1.N) (p : Fin 5000) :
    iblk1 V c 3 t (ix2 p 0) = V c main_v15 (ix2 (row1 t p) 0) := by
  obtain ⟨e00, e01, e10, e11, e20, e21, e30, e31, e40, e41, e50, e60, e61, e70, e71⟩ := idx_facts1 t
  show V c main_v15 (((cfg1.win 3).blk t).view.emb (ix2 p 0)) = _
  refine congrArg (V c main_v15) (funext fun a => Fin.ext ?_)
  match a with
  | ⟨0, _⟩ => show win1_3.index t (0 : Fin 2) * 5000 + 1 * p.val = 5000 * t.val + p.val; omega
  | ⟨1, _⟩ => show win1_3.index t (1 : Fin 2) * 1 + 1 * 0 = 0; omega

theorem rd1_4 (c : Dev nD) (t : Fin cfg1.N) (κ : Fin 128) (q : Fin 128) :
    iblk1 V c 4 t (ix2 κ q) = V c main_arg4 (ix2 κ q) := by
  obtain ⟨e00, e01, e10, e11, e20, e21, e30, e31, e40, e41, e50, e60, e61, e70, e71⟩ := idx_facts1 t
  show V c main_arg4 (((cfg1.win 4).blk t).view.emb (ix2 κ q)) = _
  refine congrArg (V c main_arg4) (funext fun a => Fin.ext ?_)
  match a with
  | ⟨0, _⟩ => show win1_4.index t (0 : Fin 2) * 128 + 1 * κ.val = κ.val; omega
  | ⟨1, _⟩ => show win1_4.index t (1 : Fin 2) * 128 + 1 * q.val = q.val; omega

theorem rd1_5 (c : Dev nD) (t : Fin cfg1.N) (q : Fin 128) :
    iblk1 V c 5 t (ix1 q) = V c main_arg5 (ix1 q) := by
  obtain ⟨e00, e01, e10, e11, e20, e21, e30, e31, e40, e41, e50, e60, e61, e70, e71⟩ := idx_facts1 t
  show V c main_arg5 (((cfg1.win 5).blk t).view.emb (ix1 q)) = _
  refine congrArg (V c main_arg5) (funext fun a => Fin.ext ?_)
  match a with
  | ⟨0, _⟩ => show win1_5.index t (0 : Fin 1) * 128 + 1 * q.val = q.val; omega

theorem emb1_6 (t : Fin cfg1.N) (p : Fin 5000) (q : Fin 128) :
    ((cfg1.win 6).blk t).view.emb (ix2 p q) = ix2 (row1 t p) q := by
  obtain ⟨e00, e01, e10, e11, e20, e21, e30, e31, e40, e41, e50, e60, e61, e70, e71⟩ := idx_facts1 t
  refine funext fun a => Fin.ext ?_
  match a with
  | ⟨0, _⟩ => show win1_6.index t (0 : Fin 2) * 5000 + 1 * p.val = 5000 * t.val + p.val; omega
  | ⟨1, _⟩ => show win1_6.index t (1 : Fin 2) * 128 + 1 * q.val = q.val; omega

theorem emb1_7 (t : Fin cfg1.N) (p : Fin 5000) (q : Fin 128) :
    ((cfg1.win 7).blk t).view.emb (ix2 p q) = ix2 (row1 t p) q := by
  obtain ⟨e00, e01, e10, e11, e20, e21, e30, e31, e40, e41, e50, e60, e61, e70, e71⟩ := idx_facts1 t
  refine funext fun a => Fin.ext ?_
  match a with
  | ⟨0, _⟩ => show win1_7.index t (0 : Fin 2) * 5000 + 1 * p.val = 5000 * t.val + p.val; omega
  | ⟨1, _⟩ => show win1_7.index t (1 : Fin 2) * 128 + 1 * q.val = q.val; omega

/-- The layer's formula on point t's blocks at (p, q) is the formula on the whole arrays at row 5000·t + p. -/
theorem lin_blocks1 (c : Dev nD) (t : Fin cfg1.N) (p : Fin 5000) (q : Fin 128) :
    lin (iblk1 V c 1 t) (iblk1 V c 2 t) (iblk1 V c 4 t) (iblk1 V c 5 t) p q
      = lin (a := 50000) (k := 128) (n := 128) (V c main_v46) (V c main_v20) (V c main_arg4) (V c main_arg5) (row1 t p) q := by
  unfold lin
  refine congrArg₂ (· + ·) (Finset.sum_congr rfl fun κ _ => ?_) (rd1_5 V c t q)
  rw [rd1_1, rd1_2, rd1_4]

theorem blend_blocks1 (c : Dev nD) (t : Fin cfg1.N) (p : Fin 5000) (q : Fin 128) :
    max (c6 * iblk1 V c 0 t (ix2 p q) + c4 * lin (iblk1 V c 1 t) (iblk1 V c 2 t) (iblk1 V c 4 t) (iblk1 V c 5 t) p q) z32
      = L1 (V c main_v35_0) (V c main_v46) (V c main_v20) (V c main_arg4) (V c main_arg5) (ix2 (row1 t p) q) := by
  refine Eq.trans ?_ (blendRelu_apply (a := 50000) (k := 128) (n := 128) (V c main_v35_0) (V c main_v46) (V c main_v20)
    (V c main_arg4) (V c main_arg5) (row1 t p) q).symm
  rw [lin_blocks1, rd1_0]

/-! ## What point t writes back -/

theorem flushed1_6_eq (c : Dev nD) (t : Fin cfg1.N) :
    (dat1 (F := Ideal) V c).flushed 6 t = ((cfg1.win 6).blk t).view.read (Elt Ideal)
      (L1 (V c main_v35_0) (V c main_v46) (V c main_v20) (V c main_arg4) (V c main_arg5)) := by
  show (cfg1.win 6).cut (grid1.coords t) ((dat1 (F := Ideal) V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  funext j
  show k1_pay1 (F := Ideal) (iblk1 V c 1 t) (iblk1 V c 2 t) (iblk1 V c 4 t) (iblk1 V c 5 t) (iblk1 V c 0 t) j
    = L1 (V c main_v35_0) (V c main_v46) (V c main_v20) (V c main_arg4) (V c main_arg5) (((cfg1.win 6).blk t).view.emb j)
  obtain ⟨p, q, rfl⟩ : ∃ (p : Fin 5000) (q : Fin 128), j = ix2 p q := ⟨j 0, j 1, eq_ix2 j⟩
  rw [emb1_6]
  refine (Pay.pay1_1 (iblk1 V c 1 t) (iblk1 V c 2 t) (iblk1 V c 4 t) (iblk1 V c 5 t) (iblk1 V c 0 t) p q).trans ?_
  exact blend_blocks1 V c t p q

theorem flushed1_7_eq (c : Dev nD) (t : Fin cfg1.N) :
    (dat1 (F := Ideal) V c).flushed 7 t = ((cfg1.win 7).blk t).view.read (Elt Ideal)
      (Sc (L1 (V c main_v35_0) (V c main_v46) (V c main_v20) (V c main_arg4) (V c main_arg5)) (V c main_v15)) := by
  show (cfg1.win 7).cut (grid1.coords t) ((dat1 (F := Ideal) V c).after 7 t) = _
  rw [after1_7]
  unfold out1_7
  rw [View.canon_unit_zero hz2]
  simp only [View.ld_unit_zero (S := S5000x128) hz2, View.ld_unit_zero (S := S5000x1) hz2,
    View.ld_unit_zero (S := S128x128) hz2, View.ld_unit_zero (S := S128) hz1]
  funext j
  show k1_pay2 (F := Ideal) (iblk1 V c 1 t) (iblk1 V c 2 t) (iblk1 V c 4 t) (iblk1 V c 5 t) (iblk1 V c 0 t) (iblk1 V c 3 t) j
    = Sc (L1 (V c main_v35_0) (V c main_v46) (V c main_v20) (V c main_arg4) (V c main_arg5)) (V c main_v15)
        (((cfg1.win 7).blk t).view.emb j)
  obtain ⟨p, q, rfl⟩ : ∃ (p : Fin 5000) (q : Fin 128), j = ix2 p q := ⟨j 0, j 1, eq_ix2 j⟩
  rw [emb1_7]
  refine (Pay.pay1_2 (iblk1 V c 1 t) (iblk1 V c 2 t) (iblk1 V c 4 t) (iblk1 V c 5 t) (iblk1 V c 0 t) (iblk1 V c 3 t) p q).trans ?_
  refine Eq.trans ?_ (scaleRows_apply (a := 50000) (n := 128)
    (L1 (V c main_v35_0) (V c main_v46) (V c main_v20) (V c main_arg4) (V c main_arg5)) (V c main_v15) (row1 t p) q).symm
  exact congrArg₂ (· * ·) (blend_blocks1 V c t p q) (rd1_3 V c t p)

/-! ## The ten blocks cover the array -/

theorem mem_blk1_6 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v47_0).slice (win1_6.rect t)).set ↔ _
  rw [View.set_slice_whole, Rect.mem_set_unit]
  exact Iff.rfl

theorem covered1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨e00, e01, e10, e11, e20, e21, e30, e31, e40, e41, e50, e60, e61, e70, e71⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem mem_blk1_7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v47_1).slice (win1_7.rect t)).set ↔ _
  rw [View.set_slice_whole, Rect.mem_set_unit]
  exact Iff.rfl

theorem covered1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨e00, e01, e10, e11, e20, e21, e30, e31, e40, e41, e50, e60, e61, e70, e71⟩ := idx_facts1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-! ## The two output arrays after the pipeline -/

theorem arr1_6 (c : Dev nD) : (dat1 (F := Ideal) V c).arrAt 6 cfg1.N
    = L1 (V c main_v35_0) (V c main_v46) (V c main_v20) (V c main_arg4) (V c main_arg5) :=
  (dat1 (F := Ideal) V c).arrAt_eq_of_cover 6 _ (fun t _ => flushed1_6_eq V c t) covered1_6

theorem arr1_7 (c : Dev nD) : (dat1 (F := Ideal) V c).arrAt 7 cfg1.N
    = Sc (L1 (V c main_v35_0) (V c main_v46) (V c main_v20) (V c main_arg4) (V c main_arg5)) (V c main_v15) :=
  (dat1 (F := Ideal) V c).arrAt_eq_of_cover 7 _ (fun t _ => flushed1_7_eq V c t) covered1_7

end Cert.KernelIdeal.Layers

end
-- ==== Proof.Layer2Value.lean ====
/-
  What the last layer's pipeline leaves in its output array, as a whole-array function of the arrays it reads.

  Point t of the ten-point grid reads rows 5000·t … 5000·t + 4999 of the previous activations, of the aggregated
  features and of the in-degree norm column, the whole stacked weight matrix and the whole combined bias, and writes
  the same rows of the fused product [h | x ⊙ c] · Wc + bc.
-/
import proofs.«111827_j45294725104222_2_alg».proof.Proof.Layer0Value

set_option maxRecDepth 16384

noncomputable section

namespace Cert.KernelIdeal.Layers

open Cert.KernelIdeal Cert.KernelIdeal.Gen Idealize.ShloMosaic Idealize.ShloMosaic.TcCoe Idealize.ShloMosaic.ValueIdx Cert.Gnn
open Idealize.SL.Sem
open Idealize.ShloMosaic.Pipeline (Dat Cfg Window)

variable (V : (c : Dev nD) → (b : Ref sig .tc) → Buf (Elt Ideal) ((c : Thread nD τ).loc b))

/-- The last layer on whole arrays: the fused product. -/
abbrev L2 (H A : S50000x128.Idx → EReal) (c : S50000x1.Idx → EReal) (Wc : S256x64.Idx → EReal) (bc : S64.Idx → EReal) :
    S50000x64.Idx → EReal := fusedProd (a := 50000) (k := 128) (n := 64) H A c Wc bc

/-- The printed index maps over the grid: point t's row block is block t; the weights' and bias's block is block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of point t's block is row 5000·t + p of the array. -/
def row2 (t : Fin cfg2.N) (p : Fin 5000) : Fin 50000 :=
  ⟨5000 * t.val + p.val, by have hN : cfg2.N = 10 := N_2; have := t.isLt; have := p.isLt; omega⟩

/-! ## The windows' blocks read at an entry -/

theorem rd2_0 (c : Dev nD) (t : Fin cfg2.N) (p : Fin 5000) (κ : Fin 128) :
    iblk2 V c 0 t (ix2 p κ) = V c main_v47_0 (ix2 (row2 t p) κ) := by
  obtain ⟨e00, e01, e10, e11, e20, e21, e30, e31, e40, e50, e51⟩ := idx_facts2 t
  show V c main_v47_0 (((cfg2.win 0).blk t).view.emb (ix2 p κ)) = _
  refine congrArg (V c main_v47_0) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * κ.val = κ.val; omega

theorem rd2_1 (c : Dev nD) (t : Fin cfg2.N) (p : Fin 5000) (κ : Fin 128) :
    iblk2 V c 1 t (ix2 p κ) = V c main_v58 (ix2 (row2 t p) κ) := by
  obtain ⟨e00, e01, e10, e11, e20, e21, e30, e31, e40, e50, e51⟩ := idx_facts2 t
  show V c main_v58 (((cfg2.win 1).blk t).view.emb (ix2 p κ)) = _
  refine congrArg (V c main_v58) (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * κ.val = κ.val; omega

theorem rd2_2 (c : Dev nD) (t : Fin cfg2.N) (p : Fin 5000) :
    iblk2 V c 2 t (ix2 p 0) = V c main_v20 (ix2 (row2 t p) 0) := by
  obtain ⟨e00, e01, e10, e11, e20, e21, e30, e31, e40, e50, e51⟩ := idx_facts2 t
  show V c main_v20 (((cfg2.win 2).blk t).view.emb (ix2 p 0)) = _
  refine congrArg (V c main_v20) (funext fun a => Fin.ext ?_)
  match a with
  | ⟨0, _⟩ => show win2_2.index t (0 : Fin 2) * 5000 + 1 * p.val = 5000 * t.val + p.val; omega
  | ⟨1, _⟩ => show win2_2.index t (1 : Fin 2) * 1 + 1 * 0 = 0; omega

theorem rd2_3 (c : Dev nD) (t : Fin cfg2.N) (κ : Fin 256) (q : Fin 64) :
    iblk2 V c 3 t (ix2 κ q) = V c main_v63 (ix2 κ q) := by
  obtain ⟨e00, e01, e10, e11, e20, e21, e30, e31, e40, e50, e51⟩ := idx_facts2 t
  show V c main_v63 (((cfg2.win 3).blk t).view.emb (ix2 κ q)) = _
  refine congrArg (V c main_v63) (funext fun a => Fin.ext ?_)
  match a with
  | ⟨0, _⟩ => show win2_3.index t (0 : Fin 2) * 256 + 1 * κ.val = κ.val; omega
  | ⟨1, _⟩ => show win2_3.index t (1 : Fin 2) * 64 + 1 * q.val = q.val; omega

theorem rd2_4 (c : Dev nD) (t : Fin cfg2.N) (q : Fin 64) :
    iblk2 V c 4 t (ix1 q) = V c main_v68 (ix1 q) := by
  obtain ⟨e00, e01, e10, e11, e20, e21, e30, e31, e40, e50, e51⟩ := idx_facts2 t
  show V c main_v68 (((cfg2.win 4).blk t).view.emb (ix1 q)) = _
  refine congrArg (V c main_v68) (funext fun a => Fin.ext ?_)
  match a with
  | ⟨0, _⟩ => show win2_4.index t (0 : Fin 1) * 64 + 1 * q.val = q.val; omega

theorem emb2_5 (t : Fin cfg2.N) (p : Fin 5000) (q : Fin 64) :
    ((cfg2.win 5).blk t).view.emb (ix2 p q) = ix2 (row2 t p) q := by
  obtain ⟨e00, e01, e10, e11, e20, e21, e30, e31, e40, e50, e51⟩ := idx_facts2 t
  refine funext fun a => Fin.ext ?_
  match a with
  | ⟨0, _⟩ => show win2_5.index t (0 : Fin 2) * 5000 + 1 * p.val = 5000 * t.val + p.val; omega
  | ⟨1, _⟩ => show win2_5.index t (1 : Fin 2) * 64 + 1 * q.val = q.val; omega

/-! ## What point t writes back -/

theorem flushed2_5_eq (c : Dev nD) (t : Fin cfg2.N) :
    (dat2 (F := Ideal) V c).flushed 5 t = ((cfg2.win 5).blk t).view.read (Elt Ideal)
      (L2 (V c main_v47_0) (V c main_v58) (V c main_v20) (V c main_v63) (V c main_v68)) := by
  show (cfg2.win 5).cut (grid2.coords t) ((dat2 (F := Ideal) V c).after 5 t) = _
  rw [after2_5]
  unfold out2_5
  rw [View.canon_unit_zero hz2]
  simp only [View.ld_unit_zero (S := S5000x128) hz2, View.ld_unit_zero (S := S5000x1) hz2,
    View.ld_unit_zero (S := S256x64) hz2, View.ld_unit_zero (S := S64) hz1]
  funext j
  show k2_pay1 (F := Ideal) (iblk2 V c 1 t) (iblk2 V c 2 t) (iblk2 V c 0 t) (iblk2 V c 3 t) (iblk2 V c 4 t) j
    = L2 (V c main_v47_0) (V c main_v58) (V c main_v20) (V c main_v63) (V c main_v68) (((cfg2.win 5).blk t).view.emb j)
  obtain ⟨p, q, rfl⟩ : ∃ (p : Fin 5000) (q : Fin 64), j = ix2 p q := ⟨j 0, j 1, eq_ix2 j⟩
  rw [emb2_5]
  refine (Pay.pay2_1 (iblk2 V c 1 t) (iblk2 V c 2 t) (iblk2 V c 0 t) (iblk2 V c 3 t) (iblk2 V c 4 t) p q).trans ?_
  rw [fusedProd_apply]
  refine Eq.trans ?_ (fusedProd_apply (a := 50000) (k := 128) (n := 64) (V c main_v47_0) (V c main_v58) (V c main_v20)
    (V c main_v63) (V c main_v68) (row2 t p) q).symm
  refine congrArg₂ (· + ·) (congrArg₂ (· + ·) (Finset.sum_congr rfl fun κ _ => ?_) (Finset.sum_congr rfl fun κ _ => ?_))
    (rd2_4 V c t q)
  · rw [rd2_0, rd2_3]
  · rw [rd2_1, rd2_2, rd2_3]

/-! ## The ten blocks cover the array -/

theorem mem_blk2_5 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v69).slice (win2_5.rect t)).set ↔ _
  rw [View.set_slice_whole, Rect.mem_set_unit]
  exact Iff.rfl

theorem covered2_5 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  obtain ⟨e00, e01, e10, e11, e20, e21, e30, e31, e40, e50, e51⟩ := idx_facts2 t
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-! ## The output array after the pipeline -/

theorem arr2_5 (c : Dev nD) : (dat2 (F := Ideal) V c).arrAt 5 cfg2.N
    = L2 (V c main_v47_0) (V c main_v58) (V c main_v20) (V c main_v63) (V c main_v68) :=
  (dat2 (F := Ideal) V c).arrAt_eq_of_cover 5 _ (fun t _ => flushed2_5_eq V c t) covered2_5

end Cert.KernelIdeal.Layers

end
-- ==== Proof.KernelFold.lean ====
/-
  The idealized kernel's result as a function of its argument arrays.

  Between the three pipelines the program works on the host: it slices the edge list into its source and destination
  rows, counts degrees by scattering ones, turns the counts into norms (the maximum with one, to the power minus one
  half), and before each layer gathers the scaled activations along the sources and scatter-adds them at the
  destinations.  Walking the contents of every buffer from the launch through the seven segments — a host stretch
  rewrites the buffers its operations name, a pipeline rewrites its output arrays and keeps the rest — gives the result
  buffer as the last layer's formula of the second layer's formula of the first layer's formula of the arguments.
-/
import proofs.«111827_j45294725104222_2_alg».proof.Proof.Layer1Value
import proofs.«111827_j45294725104222_2_alg».proof.Proof.Layer2Value
import proofs.«111827_j45294725104222_2_alg».proof.Proof.KernelRun

set_option maxRecDepth 16384

noncomputable section

namespace Cert.KernelIdeal.Stages

open Cert.KernelIdeal Cert.KernelIdeal.Gen Cert.KernelIdeal.Layers Idealize.ShloMosaic Idealize.ShloMosaic.TcCoe
open Idealize.ShloMosaic.ValueIdx Idealize.ShloMosaic.StableHlo Cert.Gnn
open Idealize.SL.Sem

/-! ## The host stretches as functions -/

/-- Row r of the edge list as a vector of node numbers. -/
def edgeRow0 (E : (⟨S2x800000, .i32⟩ : BufTy).Contents (Elt Ideal)) : (⟨S800000, .i32⟩ : BufTy).Contents (Elt Ideal) :=
  shapeCast _ (extractStridedSlice S1x800000 ![0, 0] E slices_S2x800000_S1x800000_0_0) shapeCasts_S1x800000_S800000
def edgeRow1 (E : (⟨S2x800000, .i32⟩ : BufTy).Contents (Elt Ideal)) : (⟨S800000, .i32⟩ : BufTy).Contents (Elt Ideal) :=
  shapeCast _ (extractStridedSlice S1x800000 ![1, 0] E slices_S2x800000_S1x800000_1_0) shapeCasts_S1x800000_S800000

/-- The degree norm of every node from one row of the edge list: max(count, 1) to the power -1/2. -/
def degNorm (ix : (⟨S800000, .i32⟩ : BufTy).Contents (Elt Ideal)) : (⟨S50000, .f32⟩ : BufTy).Contents (Elt Ideal) :=
  Host.powf (F := Ideal)
    (maximumf (F := Ideal)
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 ix)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- A norm vector as a column. -/
def asCol (v : (⟨S50000, .f32⟩ : BufTy).Contents (Elt Ideal)) : (⟨S50000x1, .f32⟩ : BufTy).Contents (Elt Ideal) := shapeCast S50000x1 v shapeCasts_S50000_S50000x1

/-- The source numbers with the negative ones wrapped round, as the gather's index column. -/
def gatherIx (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Aggregation: gather the rows at the sources, add them up at the destinations. -/
def aggregate (src dst : (⟨S800000, .i32⟩ : BufTy).Contents (Elt Ideal)) (x : (⟨S50000x128, .bf16⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf (F := Ideal) .f32 (Host.gather gather_S50000x128_S800000x1_S800000x128_1_0_n_n_0_1_1128 x (gatherIx src)) bitsLt_bf16_f32)

/-- The node features scaled by the out-degree norms, before the first aggregation. -/
def scaledFeats (X : (⟨S50000x128, .f32⟩ : BufTy).Contents (Elt Ideal)) (oc : (⟨S50000x1, .f32⟩ : BufTy).Contents (Elt Ideal)) : (⟨S50000x128, .bf16⟩ : BufTy).Contents (Elt Ideal) :=
  truncf (F := Ideal) .bf16 (mulf (F := Ideal) X (broadcastInDim S50000x128 ![0, 1] bcast_S50000x1_S50000x128_0_1 oc)) bitsLt_bf16_f32

/-- The stacked weights [0.6·S ; 0.4·W] and the combined bias 0.6·s + 0.4·b. -/
def stackedW (S W : (⟨S128x64, .f32⟩ : BufTy).Contents (Elt Ideal)) : (⟨S256x64, .f32⟩ : BufTy).Contents (Elt Ideal) :=
  concatenate S256x64 0
    [⟨S128x64, mulf (F := Ideal) (broadcastInDim S128x64 ![] bcast_S_S128x64 (constant (F := Ideal) S_ .f32 0x3F19999A#32)) S⟩,
     ⟨S128x64, mulf (F := Ideal) (broadcastInDim S128x64 ![] bcast_S_S128x64 (constant (F := Ideal) S_ .f32 0x3ECCCCCD#32)) W⟩]
    concatenates_S128x64_S128x64_S256x64_d0
def combinedB (s b : (⟨S64, .f32⟩ : BufTy).Contents (Elt Ideal)) : (⟨S64, .f32⟩ : BufTy).Contents (Elt Ideal) :=
  addf (F := Ideal) (mulf (F := Ideal) (broadcastInDim S64 ![] bcast_S_S64 (constant (F := Ideal) S_ .f32 0x3F19999A#32)) s)
    (mulf (F := Ideal) (broadcastInDim S64 ![] bcast_S_S64 (constant (F := Ideal) S_ .f32 0x3ECCCCCD#32)) b)

/-! ## The network, stage by stage, on the argument arrays -/

section Net
variable (X : (⟨S50000x128, .f32⟩ : BufTy).Contents (Elt Ideal)) (E : (⟨S2x800000, .i32⟩ : BufTy).Contents (Elt Ideal))
  (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
  (W3 : (⟨S128x64, .f32⟩ : BufTy).Contents (Elt Ideal)) (b3 : (⟨S64, .f32⟩ : BufTy).Contents (Elt Ideal)) (S : (⟨S128x64, .f32⟩ : BufTy).Contents (Elt Ideal)) (s : (⟨S64, .f32⟩ : BufTy).Contents (Elt Ideal))

def oc := asCol (degNorm (edgeRow0 E))
def ic := asCol (degNorm (edgeRow1 E))
def agg0 := aggregate (edgeRow0 E) (edgeRow1 E) (scaledFeats X (oc E))
def h0 := L0 (agg0 X E) (ic E) W1 b1
def agg1 := aggregate (edgeRow0 E) (edgeRow1 E) (Sc (h0 X E W1 b1) (oc E))
def h1 := L1 (h0 X E W1 b1) (agg1 X E W1 b1) (ic E) W2 b2
def agg2 := aggregate (edgeRow0 E) (edgeRow1 E) (Sc (h1 X E W1 b1 W2 b2) (oc E))
def out := L2 (h1 X E W1 b1 W2 b2) (agg2 X E W1 b1 W2 b2) (ic E) (stackedW S W3) (combinedB s b3)
def result : (⟨S1x50000x64, .f32⟩ : BufTy).Contents (Elt Ideal) :=
  broadcastInDim S1x50000x64 ![1, 2] bcast_S50000x64_S1x50000x64_1_2 (out X E W1 b1 W2 b2 W3 b3 S s)
end Net

/-! ## The buffers at the segment boundaries -/

variable (m : (ℓ : Loc nD τ sig) → Buf (Elt Ideal) ℓ) (ρ : Dev nD → PrngReg) (c : Dev nD)

-- after the first host stretch
theorem W1_v1 : W1 m ρ c (Proc.devRef .tc main_v1) = edgeRow0 (m ((c : Thread nD τ).loc main_arg1)) := by
  show StableHlo.after hostOps0 (W0 m ρ c) _ = _; after_results_simp; rfl
theorem W1_v3 : W1 m ρ c (Proc.devRef .tc main_v3) = edgeRow1 (m ((c : Thread nD τ).loc main_arg1)) := by
  show StableHlo.after hostOps0 (W0 m ρ c) _ = _; after_results_simp; rfl
theorem W1_v15 : W1 m ρ c (Proc.devRef .tc main_v15) = oc (m ((c : Thread nD τ).loc main_arg1)) := by
  show StableHlo.after hostOps0 (W0 m ρ c) _ = _; after_results_simp; rfl
theorem W1_v20 : W1 m ρ c (Proc.devRef .tc main_v20) = ic (m ((c : Thread nD τ).loc main_arg1)) := by
  show StableHlo.after hostOps0 (W0 m ρ c) _ = _; after_results_simp; rfl
theorem W1_v34 : W1 m ρ c (Proc.devRef .tc main_v34) = agg0 (m ((c : Thread nD τ).loc main_arg0)) (m ((c : Thread nD τ).loc main_arg1)) := by
  show StableHlo.after hostOps0 (W0 m ρ c) _ = _; after_results_simp; rfl
theorem W1_arg2 : W1 m ρ c (Proc.devRef .tc main_arg2) = (m ((c : Thread nD τ).loc main_arg2)) := by
  show StableHlo.after hostOps0 (W0 m ρ c) _ = _; after_results_simp
theorem W1_arg3 : W1 m ρ c (Proc.devRef .tc main_arg3) = (m ((c : Thread nD τ).loc main_arg3)) := by
  show StableHlo.after hostOps0 (W0 m ρ c) _ = _; after_results_simp
theorem W1_arg4 : W1 m ρ c (Proc.devRef .tc main_arg4) = (m ((c : Thread nD τ).loc main_arg4)) := by
  show StableHlo.after hostOps0 (W0 m ρ c) _ = _; after_results_simp
theorem W1_arg5 : W1 m ρ c (Proc.devRef .tc main_arg5) = (m ((c : Thread nD τ).loc main_arg5)) := by
  show StableHlo.after hostOps0 (W0 m ρ c) _ = _; after_results_simp
theorem W1_arg6 : W1 m ρ c (Proc.devRef .tc main_arg6) = (m ((c : Thread nD τ).loc main_arg6)) := by
  show StableHlo.after hostOps0 (W0 m ρ c) _ = _; after_results_simp
theorem W1_arg7 : W1 m ρ c (Proc.devRef .tc main_arg7) = (m ((c : Thread nD τ).loc main_arg7)) := by
  show StableHlo.after hostOps0 (W0 m ρ c) _ = _; after_results_simp
theorem W1_arg8 : W1 m ρ c (Proc.devRef .tc main_arg8) = (m ((c : Thread nD τ).loc main_arg8)) := by
  show StableHlo.after hostOps0 (W0 m ρ c) _ = _; after_results_simp
theorem W1_arg9 : W1 m ρ c (Proc.devRef .tc main_arg9) = (m ((c : Thread nD τ).loc main_arg9)) := by
  show StableHlo.after hostOps0 (W0 m ρ c) _ = _; after_results_simp

-- after the first pipeline
theorem W2_v1 : W2 m ρ c (Proc.devRef .tc main_v1) = edgeRow0 (m ((c : Thread nD τ).loc main_arg1)) :=
  (W2_of_ne m ρ c main_v1 (by decide)).trans (W1_v1 m ρ c)
theorem W2_v3 : W2 m ρ c (Proc.devRef .tc main_v3) = edgeRow1 (m ((c : Thread nD τ).loc main_arg1)) :=
  (W2_of_ne m ρ c main_v3 (by decide)).trans (W1_v3 m ρ c)
theorem W2_v15 : W2 m ρ c (Proc.devRef .tc main_v15) = oc (m ((c : Thread nD τ).loc main_arg1)) :=
  ((W2_arr m ρ c 2).trans (((dat0 (V1 m ρ) c).arrAt_in 2 rfl _).trans (A_eq0 (V1 m ρ) c 2))).trans (W1_v15 m ρ c)
theorem W2_v20 : W2 m ρ c (Proc.devRef .tc main_v20) = ic (m ((c : Thread nD τ).loc main_arg1)) :=
  ((W2_arr m ρ c 1).trans (((dat0 (V1 m ρ) c).arrAt_in 1 rfl _).trans (A_eq0 (V1 m ρ) c 1))).trans (W1_v20 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_v35_0 : W2 m ρ c (Proc.devRef .tc main_v35_0) = h0 (m ((c : Thread nD τ).loc main_arg0)) (m ((c : Thread nD τ).loc main_arg1)) (m ((c : Thread nD τ).loc main_arg2)) (m ((c : Thread nD τ).loc main_arg3)) := by
  refine (W2_arr m ρ c 5).trans ((arr0_5 (V1 m ρ) c).trans ?_)
  show L0 (W1 m ρ c (Proc.devRef .tc main_v34)) (W1 m ρ c (Proc.devRef .tc main_v20)) (W1 m ρ c (Proc.devRef .tc main_arg2))
    (W1 m ρ c (Proc.devRef .tc main_arg3)) = _
  rw [W1_v34, W1_v20, W1_arg2, W1_arg3]; rfl
theorem W2_v35_1 : W2 m ρ c (Proc.devRef .tc main_v35_1) = Sc (h0 (m ((c : Thread nD τ).loc main_arg0)) (m ((c : Thread nD τ).loc main_arg1)) (m ((c : Thread nD τ).loc main_arg2)) (m ((c : Thread nD τ).loc main_arg3))) (oc (m ((c : Thread nD τ).loc main_arg1))) := by
  refine (W2_arr m ρ c 6).trans ((arr0_6 (V1 m ρ) c).trans ?_)
  show Sc (L0 (W1 m ρ c (Proc.devRef .tc main_v34)) (W1 m ρ c (Proc.devRef .tc main_v20)) (W1 m ρ c (Proc.devRef .tc main_arg2))
    (W1 m ρ c (Proc.devRef .tc main_arg3))) (W1 m ρ c (Proc.devRef .tc main_v15)) = _
  rw [W1_v34, W1_v20, W1_arg2, W1_arg3, W1_v15]; rfl

-- after the second host stretch
theorem W3_v1 : W3 m ρ c (Proc.devRef .tc main_v1) = edgeRow0 (m ((c : Thread nD τ).loc main_arg1)) :=
  (show W3 m ρ c (Proc.devRef .tc main_v1) = W2 m ρ c (Proc.devRef .tc main_v1) by
    show StableHlo.after hostOps1 (W2 m ρ c) _ = _; after_results_simp).trans (W2_v1 m ρ c)
theorem W3_v3 : W3 m ρ c (Proc.devRef .tc main_v3) = edgeRow1 (m ((c : Thread nD τ).loc main_arg1)) :=
  (show W3 m ρ c (Proc.devRef .tc main_v3) = W2 m ρ c (Proc.devRef .tc main_v3) by
    show StableHlo.after hostOps1 (W2 m ρ c) _ = _; after_results_simp).trans (W2_v3 m ρ c)
theorem W3_v15 : W3 m ρ c (Proc.devRef .tc main_v15) = oc (m ((c : Thread nD τ).loc main_arg1)) :=
  (show W3 m ρ c (Proc.devRef .tc main_v15) = W2 m ρ c (Proc.devRef .tc main_v15) by
    show StableHlo.after hostOps1 (W2 m ρ c) _ = _; after_results_simp).trans (W2_v15 m ρ c)
theorem W3_v20 : W3 m ρ c (Proc.devRef .tc main_v20) = ic (m ((c : Thread nD τ).loc main_arg1)) :=
  (show W3 m ρ c (Proc.devRef .tc main_v20) = W2 m ρ c (Proc.devRef .tc main_v20) by
    show StableHlo.after hostOps1 (W2 m ρ c) _ = _; after_results_simp).trans (W2_v20 m ρ c)
theorem W3_v35_0 : W3 m ρ c (Proc.devRef .tc main_v35_0) = h0 (m ((c : Thread nD τ).loc main_arg0)) (m ((c : Thread nD τ).loc main_arg1)) (m ((c : Thread nD τ).loc main_arg2)) (m ((c : Thread nD τ).loc main_arg3)) :=
  (show W3 m ρ c (Proc.devRef .tc main_v35_0) = W2 m ρ c (Proc.devRef .tc main_v35_0) by
    show StableHlo.after hostOps1 (W2 m ρ c) _ = _; after_results_simp).trans (W2_v35_0 m ρ c)
theorem W3_arg4 : W3 m ρ c (Proc.devRef .tc main_arg4) = (m ((c : Thread nD τ).loc main_arg4)) :=
  (show W3 m ρ c (Proc.devRef .tc main_arg4) = W2 m ρ c (Proc.devRef .tc main_arg4) by
    show StableHlo.after hostOps1 (W2 m ρ c) _ = _; after_results_simp).trans (W2_arg4 m ρ c)
theorem W3_arg5 : W3 m ρ c (Proc.devRef .tc main_arg5) = (m ((c : Thread nD τ).loc main_arg5)) :=
  (show W3 m ρ c (Proc.devRef .tc main_arg5) = W2 m ρ c (Proc.devRef .tc main_arg5) by
    show StableHlo.after hostOps1 (W2 m ρ c) _ = _; after_results_simp).trans (W2_arg5 m ρ c)
theorem W3_arg6 : W3 m ρ c (Proc.devRef .tc main_arg6) = (m ((c : Thread nD τ).loc main_arg6)) :=
  (show W3 m ρ c (Proc.devRef .tc main_arg6) = W2 m ρ c (Proc.devRef .tc main_arg6) by
    show StableHlo.after hostOps1 (W2 m ρ c) _ = _; after_results_simp).trans (W2_arg6 m ρ c)
theorem W3_arg7 : W3 m ρ c (Proc.devRef .tc main_arg7) = (m ((c : Thread nD τ).loc main_arg7)) :=
  (show W3 m ρ c (Proc.devRef .tc main_arg7) = W2 m ρ c (Proc.devRef .tc main_arg7) by
    show StableHlo.after hostOps1 (W2 m ρ c) _ = _; after_results_simp).trans (W2_arg7 m ρ c)
theorem W3_arg8 : W3 m ρ c (Proc.devRef .tc main_arg8) = (m ((c : Thread nD τ).loc main_arg8)) :=
  (show W3 m ρ c (Proc.devRef .tc main_arg8) = W2 m ρ c (Proc.devRef .tc main_arg8) by
    show StableHlo.after hostOps1 (W2 m ρ c) _ = _; after_results_simp).trans (W2_arg8 m ρ c)
theorem W3_arg9 : W3 m ρ c (Proc.devRef .tc main_arg9) = (m ((c : Thread nD τ).loc main_arg9)) :=
  (show W3 m ρ c (Proc.devRef .tc main_arg9) = W2 m ρ c (Proc.devRef .tc main_arg9) by
    show StableHlo.after hostOps1 (W2 m ρ c) _ = _; after_results_simp).trans (W2_arg9 m ρ c)
theorem W3_v46 : W3 m ρ c (Proc.devRef .tc main_v46) = agg1 (m ((c : Thread nD τ).loc main_arg0)) (m ((c : Thread nD τ).loc main_arg1)) (m ((c : Thread nD τ).loc main_arg2)) (m ((c : Thread nD τ).loc main_arg3)) := by
  have h : W3 m ρ c (Proc.devRef .tc main_v46) = aggregate (W2 m ρ c (Proc.devRef .tc main_v1)) (W2 m ρ c (Proc.devRef .tc main_v3))
      (W2 m ρ c (Proc.devRef .tc main_v35_1)) := by
    show StableHlo.after hostOps1 (W2 m ρ c) _ = _; after_results_simp; rfl
  rw [h, W2_v1, W2_v3, W2_v35_1]; rfl

-- after the second pipeline
theorem W4_v1 : W4 m ρ c (Proc.devRef .tc main_v1) = edgeRow0 (m ((c : Thread nD τ).loc main_arg1)) :=
  (W4_of_ne m ρ c main_v1 (by decide)).trans (W3_v1 m ρ c)
theorem W4_v3 : W4 m ρ c (Proc.devRef .tc main_v3) = edgeRow1 (m ((c : Thread nD τ).loc main_arg1)) :=
  (W4_of_ne m ρ c main_v3 (by decide)).trans (W3_v3 m ρ c)
theorem W4_v20 : W4 m ρ c (Proc.devRef .tc main_v20) = ic (m ((c : Thread nD τ).loc main_arg1)) :=
  ((W4_arr m ρ c 2).trans (((dat1 (V3 m ρ) c).arrAt_in 2 rfl _).trans (A_eq1 (V3 m ρ) c 2))).trans (W3_v20 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_v47_0 : W4 m ρ c (Proc.devRef .tc main_v47_0) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ((arr1_6 (V3 m ρ) c).trans ?_)
  show L1 (W3 m ρ c (Proc.devRef .tc main_v35_0)) (W3 m ρ c (Proc.devRef .tc main_v46)) (W3 m ρ c (Proc.devRef .tc main_v20))
    (W3 m ρ c (Proc.devRef .tc main_arg4)) (W3 m ρ c (Proc.devRef .tc main_arg5)) = _
  rw [W3_v35_0, W3_v46, W3_v20, W3_arg4, W3_arg5]; rfl
theorem W4_v47_1 : W4 m ρ c (Proc.devRef .tc main_v47_1) = Sc (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (oc (m ((c : Thread nD τ).loc main_arg1))) := by
  refine (W4_arr m ρ c 7).trans ((arr1_7 (V3 m ρ) c).trans ?_)
  show Sc (L1 (W3 m ρ c (Proc.devRef .tc main_v35_0)) (W3 m ρ c (Proc.devRef .tc main_v46)) (W3 m ρ c (Proc.devRef .tc main_v20))
    (W3 m ρ c (Proc.devRef .tc main_arg4)) (W3 m ρ c (Proc.devRef .tc main_arg5))) (W3 m ρ c (Proc.devRef .tc main_v15)) = _
  rw [W3_v35_0, W3_v46, W3_v20, W3_arg4, W3_arg5, W3_v15]; rfl

-- after the third host stretch
theorem W5_v20 : W5 m ρ c (Proc.devRef .tc main_v20) = ic (m ((c : Thread nD τ).loc main_arg1)) :=
  (show W5 m ρ c (Proc.devRef .tc main_v20) = W4 m ρ c (Proc.devRef .tc main_v20) by
    show StableHlo.after hostOps2 (W4 m ρ c) _ = _; after_results_simp).trans (W4_v20 m ρ c)
theorem W5_v47_0 : W5 m ρ c (Proc.devRef .tc main_v47_0) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show W5 m ρ c (Proc.devRef .tc main_v47_0) = W4 m ρ c (Proc.devRef .tc main_v47_0) by
    show StableHlo.after hostOps2 (W4 m ρ c) _ = _; after_results_simp).trans (W4_v47_0 m ρ c)
theorem W5_v58 : W5 m ρ c (Proc.devRef .tc main_v58) = agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W5 m ρ c (Proc.devRef .tc main_v58) = aggregate (W4 m ρ c (Proc.devRef .tc main_v1)) (W4 m ρ c (Proc.devRef .tc main_v3))
      (W4 m ρ c (Proc.devRef .tc main_v47_1)) := by
    show StableHlo.after hostOps2 (W4 m ρ c) _ = _; after_results_simp; rfl
  rw [h, W4_v1, W4_v3, W4_v47_1]; rfl
theorem W5_v63 : W5 m ρ c (Proc.devRef .tc main_v63) = stackedW (m ((c : Thread nD τ).loc main_arg8)) (m ((c : Thread nD τ).loc main_arg6)) := by
  have h : W5 m ρ c (Proc.devRef .tc main_v63) = stackedW (W4 m ρ c (Proc.devRef .tc main_arg8)) (W4 m ρ c (Proc.devRef .tc main_arg6)) := by
    show StableHlo.after hostOps2 (W4 m ρ c) _ = _; after_results_simp; rfl
  rw [h, W4_arg8, W4_arg6]
theorem W5_v68 : W5 m ρ c (Proc.devRef .tc main_v68) = combinedB (m ((c : Thread nD τ).loc main_arg9)) (m ((c : Thread nD τ).loc main_arg7)) := by
  have h : W5 m ρ c (Proc.devRef .tc main_v68) = combinedB (W4 m ρ c (Proc.devRef .tc main_arg9)) (W4 m ρ c (Proc.devRef .tc main_arg7)) := by
    show StableHlo.after hostOps2 (W4 m ρ c) _ = _; after_results_simp; rfl
  rw [h, W4_arg9, W4_arg7]

-- after the last pipeline, and after the last host operation
theorem W6_v69 : W6 m ρ c (Proc.devRef .tc main_v69) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ((arr2_5 (V5 m ρ) c).trans ?_)
  show L2 (W5 m ρ c (Proc.devRef .tc main_v47_0)) (W5 m ρ c (Proc.devRef .tc main_v58)) (W5 m ρ c (Proc.devRef .tc main_v20))
    (W5 m ρ c (Proc.devRef .tc main_v63)) (W5 m ρ c (Proc.devRef .tc main_v68)) = _
  rw [W5_v47_0, W5_v58, W5_v20, W5_v63, W5_v68]; rfl
/-- The result buffer at the end of the run is the network's result on the argument arrays. -/
theorem W7_v70 : W7 m ρ c (Proc.devRef .tc main_v70) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W7 m ρ c (Proc.devRef .tc main_v70)
      = broadcastInDim S1x50000x64 ![1, 2] bcast_S50000x64_S1x50000x64_1_2 (W6 m ρ c (Proc.devRef .tc main_v69)) := by
    show StableHlo.after hostOps3 (W6 m ρ c) _ = _; after_results_simp
  rw [h, W6_v69]; rfl

end Cert.KernelIdeal.Stages

end
-- ==== Proof.LibScatterReal.lean ====
/-
  A reusable lemma: gathers and scatter-adds keep real entries real.

  Over the extended reals, an entry of a gather is by definition an entry of its operand, and an entry of a float
  scatter-add is by definition the operand's entry plus a finite sum of update entries (those whose result index is
  that entry). So if every entry of the operand (and of the updates) is a real number, so is every entry of the
  result — whatever the dimension numbers, the shapes and the index array, in range or not. Stated once for any
  shapes, the lemmas keep a proof about a large scatter from ever comparing terms over its index types.
-/
import Idealize.ShloMosaic.PureOps.Ideal
import proofs.«111827_j45294725104222_2_alg».proof.Proof.LibReal

noncomputable section

namespace Cert.Lib.IsR

open Idealize.ShloMosaic

/-- An entry of a gather of an array of real numbers is a real number. -/
theorem gather_isR {s si t : Shape} (d : GatherDims s si t) {w : Nat} (x : s.Idx → EReal) (idx : IVec si w)
    (hx : ∀ i, IsR (x i)) (j : t.Idx) : IsR (Host.gather d x idx j) := by
  unfold Host.gather
  exact hx _

/-- An entry of a float scatter-add of real updates into an array of real numbers is a real number. -/
theorem scatterAdd_isR {s si su : Shape} (d : ScatterDims s si su) {w : Nat} (x : FVec Ideal s .f32) (idx : IVec si w)
    (upd : FVec Ideal su .f32) (hx : ∀ i, IsR (x i)) (hu : ∀ j, IsR (upd j)) (i : s.Idx) :
    IsR (Host.scatterAdd d x idx upd i) := by
  show IsR (Ideal.hostScatterAdd d x idx upd i)
  unfold Ideal.hostScatterAdd
  exact add (hx i) (sum _ _ fun j _ => hu j)

end Cert.Lib.IsR

end
-- ==== Proof.KernelReal.lean ====
/-
  Every stage of the idealized kernel's network is an array of real numbers when the float arguments are.

  Degree counts are finite sums of ones; a norm is the maximum of a count with one raised to the power minus one
  half, a real power of a real base; gathering picks entries and scatter-adding sums finitely many of them; a layer is
  sums and products of entries, a maximum with zero.  So realness passes from the node features and the weights down
  to the second layer's activations and the third aggregation, which the last layer's algebra needs.
-/
import proofs.«111827_j45294725104222_2_alg».proof.Proof.KernelFold
import proofs.«111827_j45294725104222_2_alg».proof.Proof.LibScatterReal

set_option maxRecDepth 16384

noncomputable section

namespace Cert.KernelIdeal.Stages

open Cert.KernelIdeal Cert.KernelIdeal.Gen Cert.KernelIdeal.Layers Idealize.ShloMosaic Idealize.ShloMosaic.ValueIdx Cert.Gnn
open Cert.Lib.IsR

/-- A real power of a real base is real. -/
theorem pow_isR {a b : EReal} (ha : IsR a) (hb : IsR b) : IsR (Ideal.pow a b) := by
  obtain ⟨x, rfl⟩ := ha; obtain ⟨y, rfl⟩ := hb; exact ⟨Real.rpow x y, rfl⟩

/-- A scalar broadcast to any shape reads the scalar. -/
theorem splatAny_apply {α : Type} {t : Shape} (h : S_.BroadcastsInDim t ![]) (z : S_.Idx → α) (j : t.Idx) :
    broadcastInDim t ![] h z j = z ix0 := broadcastInDim_apply _ _ _ _ ix0 (fun d => d.elim0)

theorem const_isR {t : Shape} (h : S_.BroadcastsInDim t ![]) (w : BitVec 32) (hw : (w.extractLsb' 23 8).toNat ≠ 255)
    (j : t.Idx) : IsR (broadcastInDim t ![] h (constant (F := Ideal) S_ .f32 w) j) := by
  rw [splatAny_apply]; exact ofBits_f32_isR w hw

theorem shapeCast_isR {s t : Shape} (x : s.Idx → EReal) (h : s.ShapeCasts t) (hx : ∀ i, IsR (x i)) (j : t.Idx) :
    IsR (shapeCast t x h j) := by unfold shapeCast; exact hx _

theorem bcast_isR {s t : Shape} (dims : Fin s.rank → Fin t.rank) (h : s.BroadcastsInDim t dims) (x : s.Idx → EReal)
    (hx : ∀ i, IsR (x i)) (j : t.Idx) : IsR (broadcastInDim t dims h x j) := by unfold broadcastInDim; exact hx _

/-- The host's power at an entry. -/
theorem hostPowf_apply {s : Shape} {φ : FTy} (a b : FVec Ideal s φ) (i : s.Idx) : Host.powf a b i = Ideal.pow (a i) (b i) := rfl

theorem degNorm_isR (ix : (⟨S800000, .i32⟩ : BufTy).Contents (Elt Ideal)) (j : S50000.Idx) : IsR (degNorm ix j) := by
  unfold degNorm
  rw [hostPowf_apply, maximumf_apply]
  refine pow_isR (max ?_ ?_) ?_
  · refine scatterAdd_isR _ _ _ _ (fun i => ?_) (fun i => ?_) j
    · exact const_isR _ _ (by decide) i
    · exact const_isR _ _ (by decide) i
  · exact const_isR _ _ (by decide) j
  · exact const_isR _ _ (by decide) j

theorem aggregate_isR (src dst : (⟨S800000, .i32⟩ : BufTy).Contents (Elt Ideal)) (x : (⟨S50000x128, .bf16⟩ : BufTy).Contents (Elt Ideal)) (hx : ∀ i, IsR (x i))
    (j : S50000x128.Idx) : IsR (aggregate src dst x j) := by
  unfold aggregate
  refine scatterAdd_isR _ _ _ _ (fun i => ?_) (fun i => ?_) j
  · exact const_isR _ _ (by decide) i
  · rw [extf_apply]
    exact gather_isR _ _ _ hx i

section Net
variable (X : (⟨S50000x128, .f32⟩ : BufTy).Contents (Elt Ideal)) (E : (⟨S2x800000, .i32⟩ : BufTy).Contents (Elt Ideal))
  (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
  (hX : ∀ i, IsR (X i)) (hW1 : ∀ i, IsR (W1 i)) (hb1 : ∀ i, IsR (b1 i)) (hW2 : ∀ i, IsR (W2 i)) (hb2 : ∀ i, IsR (b2 i))
include hX hW1 hb1 hW2 hb2

theorem oc_isR (j) : IsR (oc E j) := by
  unfold oc asCol; exact shapeCast_isR _ _ (degNorm_isR _) j
theorem ic_isR (j) : IsR (ic E j) := by
  unfold ic asCol; exact shapeCast_isR _ _ (degNorm_isR _) j

theorem agg0_isR (j) : IsR (agg0 X E j) := by
  unfold agg0
  refine aggregate_isR _ _ _ (fun i => ?_) j
  unfold scaledFeats
  rw [truncf_apply, mulf_apply]
  exact mul (hX i) (bcast_isR _ _ _ (oc_isR X E W1 b1 W2 b2 hX hW1 hb1 hW2 hb2) i)

theorem h0_isR (j) : IsR (h0 X E W1 b1 j) := by
  unfold h0
  exact reluLin_isR _ _ _ _ (agg0_isR X E W1 b1 W2 b2 hX hW1 hb1 hW2 hb2) (ic_isR X E W1 b1 W2 b2 hX hW1 hb1 hW2 hb2) hW1 hb1 j

theorem agg1_isR (j) : IsR (agg1 X E W1 b1 j) := by
  unfold agg1
  exact aggregate_isR _ _ _ (scaleRows_isR _ _ (h0_isR X E W1 b1 W2 b2 hX hW1 hb1 hW2 hb2)
    (oc_isR X E W1 b1 W2 b2 hX hW1 hb1 hW2 hb2)) j

theorem h1_isR (j) : IsR (h1 X E W1 b1 W2 b2 j) := by
  unfold h1
  exact blendRelu_isR _ _ _ _ _ (h0_isR X E W1 b1 W2 b2 hX hW1 hb1 hW2 hb2) (agg1_isR X E W1 b1 W2 b2 hX hW1 hb1 hW2 hb2)
    (ic_isR X E W1 b1 W2 b2 hX hW1 hb1 hW2 hb2) hW2 hb2 j

theorem agg2_isR (j) : IsR (agg2 X E W1 b1 W2 b2 j) := by
  unfold agg2
  exact aggregate_isR _ _ _ (scaleRows_isR _ _ (h1_isR X E W1 b1 W2 b2 hX hW1 hb1 hW2 hb2)
    (oc_isR X E W1 b1 W2 b2 hX hW1 hb1 hW2 hb2)) j
end Net

end Cert.KernelIdeal.Stages

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«111827_j45294725104222_2_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.LibRowBias.lean ====
import Idealize.ShloMosaic.Lib.Pipeline.Value
import Idealize.ShloMosaic.Lib.ValueIdx
import Idealize.ShloMosaic.PureOps.Ideal.Laws

/-!
  A bias row added to every row of a matrix, read at an entry.

  A [1, b] row broadcast to [a, b] — by the host's `broadcast_in_dim` over axes (0, 1), or by a kernel body's
  `vector.broadcast` — has at entry (p, q) the row's entry q.  So over the extended reals

      (X + row)[p, q] = X[p, q] + row[q]      and      max(X + row, 0)[p, q] = max(X[p, q] + row[q], 0),

  whichever of the two spellings of the broadcast and of the zero (a scalar constant broadcast to [a, b], or a scalar
  splat) the program uses.  Generic in the extents a and b.
-/

noncomputable section

namespace Cert.RowBias

open Idealize.ShloMosaic Idealize.ShloMosaic.ValueIdx

variable {α : Type} {a b : Nat}

/-- A [1, b] row broadcast over axes (0, 1) to [a, b], at (p, q): the row's entry q. -/
theorem rowInDim_apply (B : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb B (ix2 p q) = B (ix2 (0 : Fin 1) q) := by
  refine broadcastInDim_apply _ _ _ _ (ix2 (0 : Fin 1) q) (fun d => ?_)
  match d with
  | ⟨0, _⟩ => rfl
  | ⟨1, _⟩ =>
    show q.val = if b = 1 then 0 else q.val
    split_ifs with h1
    · have := q.isLt; omega
    · rfl

/-- A [1, b] row broadcast by a kernel body to [a, b], at (p, q): the row's entry q. -/
theorem rowTo_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) (fun d => ?_)
  match d with
  | ⟨0, _⟩ => rfl
  | ⟨1, _⟩ =>
    show q.val = if b = 1 then 0 else q.val
    split_ifs with h1
    · have := q.isLt; omega
    · rfl

/-- A scalar broadcast to [a, b] by the host, at any entry: the scalar. -/
theorem scalarInDim_apply (z : (⟨0, ![]⟩ : Shape).Idx → α)
    (hz : (⟨0, ![]⟩ : Shape).BroadcastsInDim ⟨2, ![a, b]⟩ ![]) (j : (⟨2, ![a, b]⟩ : Shape).Idx) :
    broadcastInDim ⟨2, ![a, b]⟩ ![] hz z j = z ix0 :=
  broadcastInDim_apply _ _ _ _ ix0 (fun d => d.elim0)

/-- The host's `max(X + row, 0)` at (p, q). -/
theorem hostBiasRelu_apply (X : FVec Ideal ⟨2, ![a, b]⟩ .f32) (B : FVec Ideal ⟨2, ![1, b]⟩ .f32)
    (hb : (⟨2, ![1, b]⟩ : Shape).BroadcastsInDim ⟨2, ![a, b]⟩ ![0, 1])
    (hz : (⟨0, ![]⟩ : Shape).BroadcastsInDim ⟨2, ![a, b]⟩ ![]) (p : Fin a) (q : Fin b) :
    maximumf (addf X (broadcastInDim ⟨2, ![a, b]⟩ ![0, 1] hb B))
        (broadcastInDim ⟨2, ![a, b]⟩ ![] hz (constant (F := Ideal) ⟨0, ![]⟩ .f32 0x00000000#32)) (ix2 p q)
      = max (X (ix2 p q) + B (ix2 (0 : Fin 1) q)) (Ideal.ofBits .f32 0x00000000#32) := by
  show max (X (ix2 p q) + broadcastInDim ⟨2, ![a, b]⟩ ![0, 1] hb B (ix2 p q))
      (broadcastInDim ⟨2, ![a, b]⟩ ![] hz (constant (F := Ideal) ⟨0, ![]⟩ .f32 0x00000000#32) (ix2 p q)) = _
  rw [rowInDim_apply, scalarInDim_apply]
  rfl

/-- A kernel body's `max(x + row, 0)` at (p, q): the row broadcast by `vector.broadcast`, the zero a scalar splat. -/
theorem bodyBiasRelu_apply (x : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    maximumf (addf x (broadcastTo ⟨2, ![a, b]⟩ r h))
        (broadcast ⟨2, ![a, b]⟩ (Scalar.ofBits (F := Ideal) .f32 0x00000000#32)) (ix2 p q)
      = max (x (ix2 p q) + r (ix2 (0 : Fin 1) q)) (Ideal.ofBits .f32 0x00000000#32) := by
  show max (x (ix2 p q) + broadcastTo ⟨2, ![a, b]⟩ r h (ix2 p q)) _ = _
  rw [rowTo_apply]
  rfl

/-- The host's `Y + row` at (p, q). -/
theorem hostBias_apply (Y : FVec Ideal ⟨2, ![a, b]⟩ .f32) (B : FVec Ideal ⟨2, ![1, b]⟩ .f32)
    (hb : (⟨2, ![1, b]⟩ : Shape).BroadcastsInDim ⟨2, ![a, b]⟩ ![0, 1]) (p : Fin a) (q : Fin b) :
    addf Y (broadcastInDim ⟨2, ![a, b]⟩ ![0, 1] hb B) (ix2 p q) = Y (ix2 p q) + B (ix2 (0 : Fin 1) q) := by
  show Y (ix2 p q) + broadcastInDim ⟨2, ![a, b]⟩ ![0, 1] hb B (ix2 p q) = _
  rw [rowInDim_apply]

/-- A kernel body's `y + row` at (p, q). -/
theorem bodyBias_apply (y : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf y (broadcastTo ⟨2, ![a, b]⟩ r h) (ix2 p q) = y (ix2 p q) + r (ix2 (0 : Fin 1) q) := by
  show y (ix2 p q) + broadcastTo ⟨2, ![a, b]⟩ r h (ix2 p q) = _
  rw [rowTo_apply]

end Cert.RowBias

end
-- ==== Proof.LibGcnHost.lean ====
/-
  The reference's host operations for one layer, read at an entry; generic in the extents.

  On the host a layer is spelt with broadcasts in dimensions: the in-degree norm column [a, 1] is broadcast along the
  rows of the aggregated features, the product goes through a plain matrix product, and the bias vector [n] is first
  made a row [1, n] and then broadcast down the rows.  Read at (p, q) this is the layer's lin again.
-/
import Idealize.ShloMosaic.Lib.Pipeline.Value
import proofs.«111827_j45294725104222_2_alg».proof.Proof.LibGcnSpec
import proofs.«111827_j45294725104222_2_alg».proof.Proof.LibDotNN
import proofs.«111827_j45294725104222_2_alg».proof.Proof.LibRowBias

noncomputable section

namespace Cert.Gnn

open Idealize.ShloMosaic Idealize.ShloMosaic.ValueIdx

variable {α : Type} {a k n : Nat}

/-- An [a, 1] column broadcast over axes (0, 1) to [a, k], at (p, κ): the column's entry p. -/
theorem colInDim_apply (cv : (⟨2, ![a, 1]⟩ : Shape).Idx → α)
    (h : (⟨2, ![a, 1]⟩ : Shape).BroadcastsInDim ⟨2, ![a, k]⟩ ![0, 1]) (p : Fin a) (κ : Fin k) :
    broadcastInDim ⟨2, ![a, k]⟩ ![0, 1] h cv (ix2 p κ) = cv (ix2 p 0) := by
  refine broadcastInDim_apply _ _ _ _ (ix2 p (0 : Fin 1)) (fun d => ?_)
  match d with
  | ⟨0, _⟩ =>
    show p.val = if a = 1 then 0 else p.val
    split_ifs with h1
    · have := p.isLt; omega
    · rfl
  | ⟨1, _⟩ => rfl

/-- An [n] vector made a [1, n] row by a broadcast over axis (1), at (u, q): the vector's entry q. -/
theorem vecRowInDim_apply (b : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h b (ix2 u q) = b (ix1 q) := by
  refine broadcastInDim_apply _ _ _ _ (ix1 q) (fun d => ?_)
  match d with
  | ⟨0, _⟩ =>
    show q.val = if n = 1 then 0 else q.val
    split_ifs with h1
    · have := q.isLt; omega
    · rfl

/-- An [a] vector made an [a, 1] column by a broadcast over axis (0), at (p, u): the vector's entry p. -/
theorem vecColInDim_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ _ _ _ (ix1 p) (fun d => ?_)
  match d with
  | ⟨0, _⟩ =>
    show p.val = if a = 1 then 0 else p.val
    split_ifs with h1
    · have := p.isLt; omega
    · rfl

/-- A scalar constant broadcast to [a, n] by the host, at any entry: the constant's value. -/
theorem splat_apply (w : BitVec 32) (hz : (⟨0, ![]⟩ : Shape).BroadcastsInDim ⟨2, ![a, n]⟩ ![])
    (j : (⟨2, ![a, n]⟩ : Shape).Idx) :
    broadcastInDim ⟨2, ![a, n]⟩ ![] hz (constant (F := Ideal) ⟨0, ![]⟩ .f32 w) j = Ideal.ofBits .f32 w :=
  Cert.RowBias.scalarInDim_apply _ hz j

/-- The host's (A ⊙ c) · W + b at (p, q) is lin A c W b p q. -/
theorem linHost_apply (A : FVec Ideal ⟨2, ![a, k]⟩ .f32) (cv : FVec Ideal ⟨2, ![a, 1]⟩ .f32)
    (W : FVec Ideal ⟨2, ![k, n]⟩ .f32) (b : FVec Ideal ⟨1, ![n]⟩ .f32)
    (D : DotDims ⟨2, ![a, k]⟩ ⟨2, ![k, n]⟩ ⟨2, ![a, n]⟩) (hD : D = DotDims.plain a k n)
    (hbc : (⟨2, ![a, 1]⟩ : Shape).BroadcastsInDim ⟨2, ![a, k]⟩ ![0, 1])
    (hb1 : (⟨1, ![n]⟩ : Shape).BroadcastsInDim ⟨2, ![1, n]⟩ ![1])
    (hb2 : (⟨2, ![1, n]⟩ : Shape).BroadcastsInDim ⟨2, ![a, n]⟩ ![0, 1]) (p : Fin a) (q : Fin n) :
    addf (Host.dotGeneral D none (mulf A (broadcastInDim ⟨2, ![a, k]⟩ ![0, 1] hbc cv)) W)
        (broadcastInDim ⟨2, ![a, n]⟩ ![0, 1] hb2 (broadcastInDim ⟨2, ![1, n]⟩ ![1] hb1 b)) (ix2 p q)
      = lin A cv W b p q := by
  show Host.dotGeneral D none _ W (ix2 p q)
      + broadcastInDim ⟨2, ![a, n]⟩ ![0, 1] hb2 (broadcastInDim ⟨2, ![1, n]⟩ ![1] hb1 b) (ix2 p q) = _
  rw [Cert.RowBias.rowInDim_apply, vecRowInDim_apply]
  simp only [Host.dotGeneral]
  rw [Cert.DotNN.dotGeneral_apply D hD]
  unfold lin
  refine congrArg (· + b (ix1 q)) (Finset.sum_congr rfl fun κ _ => ?_)
  show (A (ix2 p κ) * broadcastInDim ⟨2, ![a, k]⟩ ![0, 1] hbc cv (ix2 p κ)) * W (ix2 κ q) = _
  rw [colInDim_apply]

/-- The host's H · S + s at (p, q): the plain product plus the bias. -/
theorem projHost_apply (H : FVec Ideal ⟨2, ![a, k]⟩ .f32) (S : FVec Ideal ⟨2, ![k, n]⟩ .f32) (s : FVec Ideal ⟨1, ![n]⟩ .f32)
    (D : DotDims ⟨2, ![a, k]⟩ ⟨2, ![k, n]⟩ ⟨2, ![a, n]⟩) (hD : D = DotDims.plain a k n)
    (hb1 : (⟨1, ![n]⟩ : Shape).BroadcastsInDim ⟨2, ![1, n]⟩ ![1])
    (hb2 : (⟨2, ![1, n]⟩ : Shape).BroadcastsInDim ⟨2, ![a, n]⟩ ![0, 1]) (p : Fin a) (q : Fin n) :
    addf (Host.dotGeneral D none H S)
        (broadcastInDim ⟨2, ![a, n]⟩ ![0, 1] hb2 (broadcastInDim ⟨2, ![1, n]⟩ ![1] hb1 s)) (ix2 p q)
      = (∑ κ : Fin k, H (ix2 p κ) * S (ix2 κ q)) + s (ix1 q) := by
  show Host.dotGeneral D none H S (ix2 p q)
      + broadcastInDim ⟨2, ![a, n]⟩ ![0, 1] hb2 (broadcastInDim ⟨2, ![1, n]⟩ ![1] hb1 s) (ix2 p q) = _
  rw [Cert.RowBias.rowInDim_apply, vecRowInDim_apply]
  simp only [Host.dotGeneral]
  rw [Cert.DotNN.dotGeneral_apply D hD]

/-- The host's row scaling H ⊙ c at (p, q). -/
theorem scaleHost_apply (H : FVec Ideal ⟨2, ![a, n]⟩ .f32) (cv : FVec Ideal ⟨2, ![a, 1]⟩ .f32)
    (hbc : (⟨2, ![a, 1]⟩ : Shape).BroadcastsInDim ⟨2, ![a, n]⟩ ![0, 1]) (p : Fin a) (q : Fin n) :
    mulf H (broadcastInDim ⟨2, ![a, n]⟩ ![0, 1] hbc cv) (ix2 p q) = H (ix2 p q) * cv (ix2 p 0) := by
  show H (ix2 p q) * broadcastInDim ⟨2, ![a, n]⟩ ![0, 1] hbc cv (ix2 p q) = _
  rw [colInDim_apply]

end Cert.Gnn

end
-- ==== Proof.StackedWeights.lean ====
/-
  The stacked weights and the combined bias, read at an entry.

  The stacked matrix [0.6·S ; 0.4·W] has 0.6·S in its first 128 rows and 0.4·W in the next 128; the combined bias is
  0.6·s + 0.4·b.  So the fused product over them is the fused spelling of the last layer.
-/
import proofs.«111827_j45294725104222_2_alg».proof.Proof.KernelFold
import proofs.«111827_j45294725104222_2_alg».proof.Proof.LibGcnHost

set_option maxRecDepth 16384

noncomputable section

namespace Cert.KernelIdeal.Stages

open Cert.KernelIdeal Cert.KernelIdeal.Gen Cert.KernelIdeal.Layers Idealize.ShloMosaic Idealize.ShloMosaic.ValueIdx Cert.Gnn

theorem stackedW_upper (S W : (⟨S128x64, .f32⟩ : BufTy).Contents (Elt Ideal)) (κ : Fin 128) (q : Fin 64) :
    stackedW S W (ix2 (Fin.castAdd 128 κ) q) = c6 * S (ix2 κ q) := by
  unfold stackedW
  rw [concatenate_pair_apply_left 0 _ _ concatenates_S128x64_S128x64_S256x64_d0 (ix2 (Fin.castAdd 128 κ) q) rfl (ix2 κ q)
    (fun b => by match b with | ⟨0, _⟩ => rfl | ⟨1, _⟩ => rfl)]
  show broadcastInDim S128x64 ![] bcast_S_S128x64 (constant (F := Ideal) S_ .f32 0x3F19999A#32) (ix2 κ q) * S (ix2 κ q) = _
  rw [splat_apply]
  rfl

theorem stackedW_lower (S W : (⟨S128x64, .f32⟩ : BufTy).Contents (Elt Ideal)) (κ : Fin 128) (q : Fin 64) :
    stackedW S W (ix2 (Fin.natAdd 128 κ) q) = c4 * W (ix2 κ q) := by
  unfold stackedW
  rw [concatenate_pair_apply_right 0 _ _ concatenates_S128x64_S128x64_S256x64_d0 (ix2 (Fin.natAdd 128 κ) q) rfl rfl (ix2 κ q)
    (fun b hb => by
      match b with
      | ⟨0, _⟩ => exact absurd rfl hb
      | ⟨1, _⟩ => rfl)
    (by show κ.val + 128 = 128 + κ.val; omega)]
  show broadcastInDim S128x64 ![] bcast_S_S128x64 (constant (F := Ideal) S_ .f32 0x3ECCCCCD#32) (ix2 κ q) * W (ix2 κ q) = _
  rw [splat_apply]
  rfl

theorem combinedB_apply (s b : (⟨S64, .f32⟩ : BufTy).Contents (Elt Ideal)) (q : Fin 64) :
    combinedB s b (ix1 q) = c6 * s (ix1 q) + c4 * b (ix1 q) := by
  unfold combinedB
  show broadcastInDim S64 ![] bcast_S_S64 (constant (F := Ideal) S_ .f32 0x3F19999A#32) (ix1 q) * s (ix1 q)
      + broadcastInDim S64 ![] bcast_S_S64 (constant (F := Ideal) S_ .f32 0x3ECCCCCD#32) (ix1 q) * b (ix1 q) = _
  rw [broadcastInDim_apply _ bcast_S_S64 _ (ix1 q) ix0 (fun d => d.elim0),
    broadcastInDim_apply _ bcast_S_S64 _ (ix1 q) ix0 (fun d => d.elim0)]
  rfl

/-- The fused product over the stacked weights is the fused spelling of the last layer. -/
theorem fused_stacked (H A : S50000x128.Idx → EReal) (c : S50000x1.Idx → EReal) (S W : (⟨S128x64, .f32⟩ : BufTy).Contents (Elt Ideal))
    (s b : (⟨S64, .f32⟩ : BufTy).Contents (Elt Ideal)) :
    L2 H A c (stackedW S W) (combinedB s b) = headFused (a := 50000) (k := 128) (n := 64) H A c S s W b := by
  funext i
  obtain ⟨p, q, rfl⟩ : ∃ (p : Fin 50000) (q : Fin 64), i = ix2 p q := ⟨i 0, i 1, eq_ix2 i⟩
  refine (fusedProd_apply (a := 50000) (k := 128) (n := 64) H A c (stackedW S W) (combinedB s b) p q).trans ?_
  rw [headFused_apply, combinedB_apply]
  refine congrArg (· + (c6 * s (ix1 q) + c4 * b (ix1 q)))
    (congrArg₂ (· + ·) (Finset.sum_congr rfl fun κ _ => ?_) (Finset.sum_congr rfl fun κ _ => ?_))
  · rw [stackedW_upper]
  · rw [stackedW_lower]

end Cert.KernelIdeal.Stages

end
-- ==== Proof.RefStages.lean ====
/-
  The reference's stages, each written through the layer functions of the specification.

  The reference computes, on the host, the same three layers: after every aggregation it scales the rows by the
  in-degree norms, multiplies by the weights and adds the bias; layer 0 clamps at zero, layer 1 blends with the
  previous activations and clamps, the last layer blends a projected skip branch with the main branch.  Each stage's
  array is the corresponding layer function of the previous stages' arrays.
-/
import proofs.«111827_j45294725104222_2_alg».proof.Proof.Gen.ReferenceIdeal.Read
import proofs.«111827_j45294725104222_2_alg».proof.Proof.LibGcnHost
import proofs.«111827_j45294725104222_2_alg».proof.Proof.LibGcnHead

noncomputable section

namespace Cert.ReferenceIdeal.Stages

open Cert.ReferenceIdeal Cert.ReferenceIdeal.Gen Cert.ReferenceIdeal.Read Idealize.ShloMosaic Idealize.ShloMosaic.ValueIdx Cert.Gnn

variable (X : (⟨S50000x128, .f32⟩ : BufTy).Contents (Elt Ideal)) (E : (⟨S2x800000, .i32⟩ : BufTy).Contents (Elt Ideal))
  (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
  (W3 : (⟨S128x64, .f32⟩ : BufTy).Contents (Elt Ideal)) (b3 : (⟨S64, .f32⟩ : BufTy).Contents (Elt Ideal)) (S : (⟨S128x64, .f32⟩ : BufTy).Contents (Elt Ideal)) (s : (⟨S64, .f32⟩ : BufTy).Contents (Elt Ideal))

/-- The scaled node features: every row times its out-degree norm. -/
theorem feats_eq : val_main_v21 (F := Ideal) X E = scaleRows (a := 50000) (n := 128) X (val_main_v19 (F := Ideal) E) := by
  funext i
  obtain ⟨p, q, rfl⟩ : ∃ (p : Fin 50000) (q : Fin 128), i = ix2 p q := ⟨i 0, i 1, eq_ix2 i⟩
  unfold val_main_v21 val_main_v20
  rw [scaleHost_apply X (val_main_v19 (F := Ideal) E), scaleRows_apply]

/-- Layer 0. -/
theorem h0_eq : val_main_v39 (F := Ideal) X E W1 b1
    = reluLin (a := 50000) (k := 128) (n := 128) (val_main_v31 (F := Ideal) X E) (val_main_v32 (F := Ideal) E) W1 b1 := by
  funext i
  obtain ⟨p, q, rfl⟩ : ∃ (p : Fin 50000) (q : Fin 128), i = ix2 p q := ⟨i 0, i 1, eq_ix2 i⟩
  unfold val_main_v39 val_main_v38 val_main_v35 val_main_v34 val_main_v33 val_main_v37 val_main_v36 val_main_call0_v0
    val_main_call0_cst
  rw [maximumf_apply, linHost_apply (val_main_v31 (F := Ideal) X E) (val_main_v32 (F := Ideal) E) W1 b1
    dot_S50000x128_S128x128_S50000x128_1_0_0_1_n_n rfl, splat_apply, reluLin_apply]
  rfl

theorem h0s_eq : val_main_v42 (F := Ideal) X E W1 b1
    = scaleRows (a := 50000) (n := 128) (val_main_v39 (F := Ideal) X E W1 b1) (val_main_v40 (F := Ideal) E) := by
  funext i
  obtain ⟨p, q, rfl⟩ : ∃ (p : Fin 50000) (q : Fin 128), i = ix2 p q := ⟨i 0, i 1, eq_ix2 i⟩
  unfold val_main_v42 val_main_v41
  rw [scaleHost_apply (val_main_v39 (F := Ideal) X E W1 b1) (val_main_v40 (F := Ideal) E), scaleRows_apply]

/-- Layer 1. -/
theorem h1_eq : val_main_v65 (F := Ideal) X E W1 b1 W2 b2
    = blendRelu (a := 50000) (k := 128) (n := 128) (val_main_v39 (F := Ideal) X E W1 b1) (val_main_v52 (F := Ideal) X E W1 b1)
        (val_main_v53 (F := Ideal) E) W2 b2 := by
  funext i
  obtain ⟨p, q, rfl⟩ : ∃ (p : Fin 50000) (q : Fin 128), i = ix2 p q := ⟨i 0, i 1, eq_ix2 i⟩
  unfold val_main_v65 val_main_v64 val_main_v61 val_main_v63 val_main_v60 val_main_v62 val_main_cst_11 val_main_cst_12
    val_main_v59 val_main_v56 val_main_v55 val_main_v54 val_main_v58 val_main_v57 val_main_call1_v0 val_main_call1_cst
  rw [maximumf_apply, addf_apply, mulf_apply, mulf_apply,
    linHost_apply (val_main_v52 (F := Ideal) X E W1 b1) (val_main_v53 (F := Ideal) E) W2 b2
      dot_S50000x128_S128x128_S50000x128_1_0_0_1_n_n rfl, splat_apply, splat_apply, splat_apply, blendRelu_apply]
  rfl

theorem h1s_eq : val_main_v68 (F := Ideal) X E W1 b1 W2 b2
    = scaleRows (a := 50000) (n := 128) (val_main_v65 (F := Ideal) X E W1 b1 W2 b2) (val_main_v66 (F := Ideal) E) := by
  funext i
  obtain ⟨p, q, rfl⟩ : ∃ (p : Fin 50000) (q : Fin 128), i = ix2 p q := ⟨i 0, i 1, eq_ix2 i⟩
  unfold val_main_v68 val_main_v67
  rw [scaleHost_apply (val_main_v65 (F := Ideal) X E W1 b1 W2 b2) (val_main_v66 (F := Ideal) E), scaleRows_apply]

/-- The last layer. -/
theorem out_eq : val_main_v94 (F := Ideal) X E W1 b1 W2 b2 W3 b3 S s
    = headRef (a := 50000) (k := 128) (n := 64) (val_main_v65 (F := Ideal) X E W1 b1 W2 b2)
        (val_main_v78 (F := Ideal) X E W1 b1 W2 b2) (val_main_v79 (F := Ideal) E) S s W3 b3 := by
  funext i
  obtain ⟨p, q, rfl⟩ : ∃ (p : Fin 50000) (q : Fin 64), i = ix2 p q := ⟨i 0, i 1, eq_ix2 i⟩
  unfold val_main_v94 val_main_v91 val_main_v93 val_main_v90 val_main_v92 val_main_cst_16 val_main_cst_17 val_main_v89
    val_main_v86 val_main_v88 val_main_v87 val_main_v85 val_main_v82 val_main_v81 val_main_v80 val_main_v84 val_main_v83
  rw [addf_apply, mulf_apply, mulf_apply,
    projHost_apply (val_main_v65 (F := Ideal) X E W1 b1 W2 b2) S s dot_S50000x128_S128x64_S50000x64_1_0_0_1_n_n rfl,
    linHost_apply (val_main_v78 (F := Ideal) X E W1 b1 W2 b2) (val_main_v79 (F := Ideal) E) W3 b3
      dot_S50000x128_S128x64_S50000x64_1_0_0_1_n_n rfl, splat_apply, splat_apply, headRef_apply]
  rfl

end Cert.ReferenceIdeal.Stages

end
-- ==== Proof.LibLayout.lean ====
import Idealize.ShloMosaic.Lib.Pipeline.Value
import Idealize.ShloMosaic.Lib.ValueIdx

/-!
  Two layout facts. A vector of n entries reshaped to a [1, n] row is the vector broadcast along a new leading axis, and
  reshaped to an [n, 1] column it is the vector broadcast along a new trailing axis: in both cases entry (·, j) or (i, ·)
  of the result is entry j or i of the vector, because the row-major position of an index does not see a unit axis.
-/

noncomputable section

namespace Cert.Layout

open Idealize.ShloMosaic Idealize.ShloMosaic.ValueIdx

variable {α : Type} {n : Nat}

/-- A reshape of [n] to [1, n] is the broadcast that puts the vector's axis second. -/
theorem row_reshape_eq_broadcast (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have h0 : (j 0).val = 0 := by have := (j 0).isLt; simp at this; omega
  have hr : shapeCast ⟨2, ![1, n]⟩ v h j = v (ix1 (⟨(j 1).val, (j 1).isLt⟩ : Fin n)) :=
    shapeCast_apply v h j (ix1 (⟨(j 1).val, (j 1).isLt⟩ : Fin n)) (by
      rw [Shape.rowMajor_val_one, Shape.rowMajor_val_two, h0]; simp; rfl)
  rw [hr]
  symm
  refine broadcastInDim_apply _ _ _ _ (ix1 (⟨(j 1).val, (j 1).isLt⟩ : Fin n)) (fun a => ?_)
  have ha : a = 0 := Subsingleton.elim _ _
  subst ha
  show (j 1).val = if n = 1 then 0 else (j 1).val
  split_ifs with h1
  · have := (j 1).isLt; simp at this; omega
  · rfl

/-- A reshape of [n] to [n, 1] is the broadcast that puts the vector's axis first. -/
theorem column_reshape_eq_broadcast (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have h1 : (j 1).val = 0 := by have := (j 1).isLt; simp at this; omega
  have hr : shapeCast ⟨2, ![n, 1]⟩ v h j = v (ix1 (⟨(j 0).val, (j 0).isLt⟩ : Fin n)) :=
    shapeCast_apply v h j (ix1 (⟨(j 0).val, (j 0).isLt⟩ : Fin n)) (by
      rw [Shape.rowMajor_val_one, Shape.rowMajor_val_two, h1]; simp; rfl)
  rw [hr]
  symm
  refine broadcastInDim_apply _ _ _ _ (ix1 (⟨(j 0).val, (j 0).isLt⟩ : Fin n)) (fun a => ?_)
  have ha : a = 0 := Subsingleton.elim _ _
  subst ha
  show (j 0).val = if n = 1 then 0 else (j 0).val
  split_ifs with hn
  · have := (j 0).isLt; simp at this; omega
  · rfl

end Cert.Layout

end
-- ==== Proof.Bridge.lean ====
/-
  The idealized kernel's network and the reference's are the same function of the arguments.

  Stage by stage.  The degree norms are the same arrays: the kernel reshapes the norm vector into a column, the
  reference broadcasts it into one, and a column has one entry per row either way.  An aggregation gathers and
  scatter-adds the same rows along the same edges, the kernel's change of float format on the way being the identity
  on extended reals.  Layers 0 and 1 are the same layer functions of the same arrays.  For the last layer the kernel's
  fused product over the stacked weights is the reference's blend of two products by distributivity, every quantity
  in it being a real number under the precondition.
-/
import proofs.«111827_j45294725104222_2_alg».proof.Proof.KernelReal
import proofs.«111827_j45294725104222_2_alg».proof.Proof.StackedWeights
import proofs.«111827_j45294725104222_2_alg».proof.Proof.RefStages
import proofs.«111827_j45294725104222_2_alg».proof.Proof.LibLayout

set_option maxRecDepth 16384

noncomputable section

namespace Cert.Bridge

open Cert.KernelIdeal.Stages Cert.KernelIdeal.Layers Cert.ReferenceIdeal.Read Cert.ReferenceIdeal.Stages
open Idealize.ShloMosaic Idealize.ShloMosaic.ValueIdx Cert.Gnn Cert.Lib.IsR

variable (X : (⟨Cert.KernelIdeal.S50000x128, .f32⟩ : BufTy).Contents (Elt Ideal)) (E : (⟨Cert.KernelIdeal.S2x800000, .i32⟩ : BufTy).Contents (Elt Ideal))
  (W1 : (⟨Cert.KernelIdeal.S128x128, .f32⟩ : BufTy).Contents (Elt Ideal)) (b1 : (⟨Cert.KernelIdeal.S128, .f32⟩ : BufTy).Contents (Elt Ideal)) (W2 : (⟨Cert.KernelIdeal.S128x128, .f32⟩ : BufTy).Contents (Elt Ideal)) (b2 : (⟨Cert.KernelIdeal.S128, .f32⟩ : BufTy).Contents (Elt Ideal))
  (W3 : (⟨Cert.KernelIdeal.S128x64, .f32⟩ : BufTy).Contents (Elt Ideal)) (b3 : (⟨Cert.KernelIdeal.S64, .f32⟩ : BufTy).Contents (Elt Ideal)) (S : (⟨Cert.KernelIdeal.S128x64, .f32⟩ : BufTy).Contents (Elt Ideal)) (s : (⟨Cert.KernelIdeal.S64, .f32⟩ : BufTy).Contents (Elt Ideal))

/-- A change of float format is the identity on arrays of extended reals. -/
theorem extf_id {s : Shape} (a : FVec Ideal s .bf16) (h : FTy.bf16.bits < FTy.f32.bits) :
    (extf (F := Ideal) .f32 a h : s.Idx → EReal) = a := rfl
theorem truncf_id {s : Shape} (a : FVec Ideal s .f32) (h : FTy.bf16.bits < FTy.f32.bits) :
    (truncf (F := Ideal) .bf16 a h : s.Idx → EReal) = a := rfl

/-- The out-degree norm column. -/
theorem oc_eq : oc E = val_main_v19 (F := Ideal) E := by
  unfold oc asCol
  rw [Cert.Layout.column_reshape_eq_broadcast (n := 50000) _ _ Cert.ReferenceIdeal.Gen.bcast_S50000_S50000x1_0]
  rfl

/-- The in-degree norm column. -/
theorem ic_eq : ic E = val_main_v32 (F := Ideal) E := by
  unfold ic asCol
  rw [Cert.Layout.column_reshape_eq_broadcast (n := 50000) _ _ Cert.ReferenceIdeal.Gen.bcast_S50000_S50000x1_0]
  rfl

/-- The first aggregation. -/
theorem agg0_eq : agg0 X E = val_main_v31 (F := Ideal) X E := by
  unfold agg0 aggregate scaledFeats
  rw [oc_eq, extf_id, truncf_id]
  rfl

theorem h0_eq' : h0 X E W1 b1 = val_main_v39 (F := Ideal) X E W1 b1 := by
  unfold h0
  rw [agg0_eq, ic_eq]
  exact (h0_eq X E W1 b1).symm

theorem h0s_eq' : Sc (h0 X E W1 b1) (oc E) = val_main_v42 (F := Ideal) X E W1 b1 := by
  rw [h0_eq', oc_eq]
  exact (h0s_eq X E W1 b1).symm

theorem agg1_eq : agg1 X E W1 b1 = val_main_v52 (F := Ideal) X E W1 b1 := by
  unfold agg1 aggregate
  rw [h0s_eq', extf_id]
  rfl

theorem h1_eq' : h1 X E W1 b1 W2 b2 = val_main_v65 (F := Ideal) X E W1 b1 W2 b2 := by
  unfold h1
  rw [h0_eq', agg1_eq, ic_eq]
  exact (h1_eq X E W1 b1 W2 b2).symm

theorem h1s_eq' : Sc (h1 X E W1 b1 W2 b2) (oc E) = val_main_v68 (F := Ideal) X E W1 b1 W2 b2 := by
  rw [h1_eq', oc_eq]
  exact (h1s_eq X E W1 b1 W2 b2).symm

theorem agg2_eq : agg2 X E W1 b1 W2 b2 = val_main_v78 (F := Ideal) X E W1 b1 W2 b2 := by
  unfold agg2 aggregate
  rw [h1s_eq', extf_id]
  rfl

/-- The last layer, on real arguments. -/
theorem out_eq' (hX : ∀ i, IsR (X i)) (hW1 : ∀ i, IsR (W1 i)) (hb1 : ∀ i, IsR (b1 i)) (hW2 : ∀ i, IsR (W2 i))
    (hb2 : ∀ i, IsR (b2 i)) (hW3 : ∀ i, IsR (W3 i)) (hb3 : ∀ i, IsR (b3 i)) (hS : ∀ i, IsR (S i)) (hs : ∀ i, IsR (s i)) :
    out X E W1 b1 W2 b2 W3 b3 S s = val_main_v94 (F := Ideal) X E W1 b1 W2 b2 W3 b3 S s := by
  unfold out
  rw [fused_stacked,
    headFused_eq_headRef _ _ _ _ _ _ _ (h1_isR X E W1 b1 W2 b2 hX hW1 hb1 hW2 hb2) (agg2_isR X E W1 b1 W2 b2 hX hW1 hb1 hW2 hb2)
      (ic_isR X E W1 b1 W2 b2 hX hW1 hb1 hW2 hb2) hS hs hW3 hb3,
    h1_eq', agg2_eq, ic_eq]
  exact (out_eq X E W1 b1 W2 b2 W3 b3 S s).symm

/-- The two results, on real arguments. -/
theorem result_eq (hX : ∀ i, IsR (X i)) (hW1 : ∀ i, IsR (W1 i)) (hb1 : ∀ i, IsR (b1 i)) (hW2 : ∀ i, IsR (W2 i))
    (hb2 : ∀ i, IsR (b2 i)) (hW3 : ∀ i, IsR (W3 i)) (hb3 : ∀ i, IsR (b3 i)) (hS : ∀ i, IsR (S i)) (hs : ∀ i, IsR (s i)) :
    result X E W1 b1 W2 b2 W3 b3 S s = val_main_v95 (F := Ideal) X E W1 b1 W2 b2 W3 b3 S s := by
  unfold result val_main_v95
  rw [out_eq' X E W1 b1 W2 b2 W3 b3 S s hX hW1 hb1 hW2 hb2 hW3 hb3 hS hs]

end Cert.Bridge

end
-- ==== Proof.Finite.lean ====
/-
  From the precondition to real numbers.

  The precondition is the conjunction, over the nine float arguments, of "every entry's absolute value is below
  +infinity".  Over the extended reals an entry x with max(x, -x) < +infinity is neither infinity, so it is a real
  number.
-/
import proofs.«111827_j45294725104222_2_alg».proof.Pre_finite_inputs
import proofs.«111827_j45294725104222_2_alg».proof.Proof.Gen.Pre_finite_inputs
import Idealize.ShloMosaic.Lib.ReduceAll
import Idealize.ShloMosaic.Lib.Pipeline.Value
import Idealize.ShloMosaic.Lib.ValueIdx
import proofs.«111827_j45294725104222_2_alg».proof.Proof.LibReal

noncomputable section

namespace Cert.Finite

open Cert.Pre_finite_inputs Cert.Pre_finite_inputs.Gen Idealize.ShloMosaic Idealize.ShloMosaic.ValueIdx Cert.Lib.IsR

instance : Subsingleton S_.Idx := ⟨fun a b => funext fun d => d.elim0⟩

/-- The word 0x7F800000 is +infinity. -/
theorem ofBits_inf : Ideal.ofBits .f32 0x7F800000#32 = ⊤ := by simp [Ideal.ofBits, Ideal.ieee]

/-- An extended real whose absolute value compares below +infinity is a real number. -/
theorem isR_of_abs_lt_inf (x : EReal)
    (h : Ideal.cmp .olt (max x (-x)) (Ideal.ofBits .f32 0x7F800000#32) = 1#1) : IsR x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One conjunct: all(|a| < +infinity) gives every entry of a real. -/
theorem all_finite {s : Shape} {axes : List (Fin s.rank)} (a : FVec Ideal s .f32) (hb : S_.BroadcastsInDim s ![])
    (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : IsR (a i) := by
  have h := Host.reduce_andi_all _ _ hr hu ix0 e i
  have hb' : broadcastInDim s ![] hb (constant (F := Ideal) S_ .f32 0x7F800000#32) i = Ideal.ofBits .f32 0x7F800000#32 :=
    broadcastInDim_apply _ _ _ _ ix0 (fun d => d.elim0)
  refine isR_of_abs_lt_inf (a i) ?_
  rw [← hb']
  exact h

/-- The precondition makes every float argument an array of real numbers. -/
theorem pre_real (a0 : FVec Ideal S50000x128 .f32) (a1 : IVec S2x800000 32) (a2 : FVec Ideal S128x128 .f32)
    (a3 : FVec Ideal S128 .f32) (a4 : FVec Ideal S128x128 .f32) (a5 : FVec Ideal S128 .f32) (a6 : FVec Ideal S128x64 .f32)
    (a7 : FVec Ideal S64 .f32) (a8 : FVec Ideal S128x64 .f32) (a9 : FVec Ideal S64 .f32)
    (h : fn (F := Ideal) a0 a1 a2 a3 a4 a5 a6 a7 a8 a9 = fun _ => 1#1) :
    (∀ i, IsR (a0 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) := by
  have e := congrFun h ix0
  dsimp only [fn, fn_part1, fn_part2] at e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_finite a0 _ _ _ h0, all_finite a2 _ _ _ h2, all_finite a3 _ _ _ h3, all_finite a4 _ _ _ h4,
    all_finite a5 _ _ _ h5, all_finite a6 _ _ _ h6, all_finite a7 _ _ _ h7, all_finite a8 _ _ _ h8, all_finite a9 _ _ _ h9⟩

end Cert.Finite

end
-- ==== Proof.lean ====
/-
  The certificate of a three-layer graph encoder: a kernel that runs each layer's dense part as one pipelined pass
  (scaling by the in-degree norm, a matrix product, bias, blend, clamp, scaling by the out-degree norm) with the
  gathers and scatter-adds of the aggregation on the host between the passes, against a reference that computes the
  same network with host operations only.

  Over the extended reals the two compute the same function of the arguments.  Layers 0 and 1 are the same formulas;
  for the last layer the kernel multiplies the rows [h | agg · in_norm] by the stacked weights [0.6·S ; 0.4·W] and adds
  0.6·s + 0.4·b, while the reference computes 0.6·(h·S + s) + 0.4·(agg · in_norm · W + b): equal by distributivity, which
  holds because, the float inputs being finite, every quantity involved is a real number.

  The frames of the two kernel programs are the generated ones; the reference's frame is its run with the result
  dropped; no operation was rewritten by the idealization, so there is nothing to preserve.
-/
import proofs.«111827_j45294725104222_2_alg».proof.Defs
import proofs.«111827_j45294725104222_2_alg».proof.Proof.Gen.Kernel
import proofs.«111827_j45294725104222_2_alg».proof.Proof.Gen.Kernel.Skeleton
import proofs.«111827_j45294725104222_2_alg».proof.Proof.Gen.Kernel.Launch
import proofs.«111827_j45294725104222_2_alg».proof.Proof.Gen.Kernel.Points
import proofs.«111827_j45294725104222_2_alg».proof.Proof.Gen.Kernel.Frame
import proofs.«111827_j45294725104222_2_alg».proof.Proof.Gen.KernelIdeal
import proofs.«111827_j45294725104222_2_alg».proof.Proof.Gen.KernelIdeal.Skeleton
import proofs.«111827_j45294725104222_2_alg».proof.Proof.Gen.KernelIdeal.Launch
import proofs.«111827_j45294725104222_2_alg».proof.Proof.Gen.KernelIdeal.Points
import proofs.«111827_j45294725104222_2_alg».proof.Proof.Gen.KernelIdeal.Frame
import proofs.«111827_j45294725104222_2_alg».proof.Proof.Gen.ReferenceIdeal
import proofs.«111827_j45294725104222_2_alg».proof.Proof.Gen.Pre_finite_inputs
import proofs.«111827_j45294725104222_2_alg».proof.Proof.Gen.ReferenceIdeal.Run
import proofs.«111827_j45294725104222_2_alg».proof.Proof.Gen.ReferenceIdeal.Read
import proofs.«111827_j45294725104222_2_alg».proof.Proof.KernelRun
import proofs.«111827_j45294725104222_2_alg».proof.Proof.KernelFold
import proofs.«111827_j45294725104222_2_alg».proof.Proof.Bridge
import proofs.«111827_j45294725104222_2_alg».proof.Proof.Finite
import Idealize.ShloMosaic.Adequacy
import Idealize.ShloMosaic.Init

set_option maxRecDepth 16384

noncomputable section

namespace Cert.Proof

open Idealize.ShloMosaic Idealize.SL.Sem

/-- Both idealized programs end with the network's result on the arguments: the kernel by walking its buffers through
    the segments, the reference by its run; the two networks agree on real arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Gen.run_result (F := Ideal) m ρ)
    exact ⟨(h c).1.trans (Cert.KernelIdeal.Stages.W7_v70 m ρ c), (h c).2⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq]
    obtain ⟨a0, a1, a2, a3, a4, a5, a6, a7, a8, a9⟩ := hagree c
    rw [a0, a1, a2, a3, a4, a5, a6, a7, a8, a9]
    obtain ⟨hX, hW1, hb1, hW2, hb2, hW3, hb3, hS, hs⟩ := Cert.Finite.pre_real _ _ _ _ _ _ _ _ _ _ (hpre c)
    exact (Cert.Bridge.result_eq _ _ _ _ _ _ _ _ _ _ hX hW1 hb1 hW2 hb2 hW3 hb3 hS hs).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
